-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)
  ∧ IdealRules.named_const.Statement Cert.KernelIdeal.κ "inv_sqrt_hd" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x5x1792 : Shape := ⟨3, ![8192, 5, 1792]⟩
abbrev S5x5 : Shape := ⟨2, ![5, 5]⟩
abbrev S5376x1792 : Shape := ⟨2, ![5376, 1792]⟩
abbrev S5376 : Shape := ⟨1, ![5376]⟩
abbrev S1792x1792 : Shape := ⟨2, ![1792, 1792]⟩
abbrev S1792 : Shape := ⟨1, ![1792]⟩
abbrev S_ : Shape := ⟨0, ![]⟩

class Facts : Prop where
  bcast_S_S8192x5x1792 : S_.BroadcastsInDim S8192x5x1792 (![] : Fin 0 → Fin S8192x5x1792.rank)
  reducesTo_S8192x5x1792_S_d0_1_2 : S8192x5x1792.ReducesTo [0, 1, 2] S_
  h_S_ : 0 < S_.numel
  bcast_S_S5376x1792 : S_.BroadcastsInDim S5376x1792 (![] : Fin 0 → Fin S5376x1792.rank)
  reducesTo_S5376x1792_S_d0_1 : S5376x1792.ReducesTo [0, 1] S_
  bcast_S_S5376 : S_.BroadcastsInDim S5376 (![] : Fin 0 → Fin S5376.rank)
  reducesTo_S5376_S_d0 : S5376.ReducesTo [0] S_
  bcast_S_S1792x1792 : S_.BroadcastsInDim S1792x1792 (![] : Fin 0 → Fin S1792x1792.rank)
  reducesTo_S1792x1792_S_d0_1 : S1792x1792.ReducesTo [0, 1] S_
  bcast_S_S1792 : S_.BroadcastsInDim S1792 (![] : Fin 0 → Fin S1792.rank)
  reducesTo_S1792_S_d0 : S1792.ReducesTo [0] S_

variable [Facts]

def fn_part1 {F : FTy → Type} [FloatOps F] (main_arg5 : FVec F S1792 .f32) (main_v13 : IVec S_ 1) (main_v16 : IVec S1792x1792 1) : IVec S_ 1 :=
  let main_c_5 : IVec S_ 1 := constantI S_ 1 1#1
  let main_v17 : IVec S_ 1 := (fun x v => Host.reduce IntOp.andi x v reducesTo_S1792x1792_S_d0_1 h_S_) main_v16 main_c_5
  let main_v18 : IVec S_ 1 := andi main_v13 main_v17
  let main_v19 : FVec F S1792 .f32 := Host.absf main_arg5
  let main_cst_6 : FVec F S_ .f32 := constant S_ .f32 0x7F800000#32
  let main_v20 : FVec F S1792 .f32 := broadcastInDim S1792 ![] bcast_S_S1792 main_cst_6
  let main_v21 : IVec S1792 1 := cmpf .olt main_v19 main_v20
  let main_c_7 : IVec S_ 1 := constantI S_ 1 1#1
  let main_v22 : IVec S_ 1 := (fun x v => Host.reduce IntOp.andi x v reducesTo_S1792_S_d0 h_S_) main_v21 main_c_7
  let main_v23 : IVec S_ 1 := andi main_v18 main_v22
  main_v23

def fn {F : FTy → Type} [FloatOps F] (main_arg0 : FVec F S8192x5x1792 .f32) (main_arg1 : IVec S5x5 32) (main_arg2 : FVec F S5376x1792 .f32) (main_arg3 : FVec F S5376 .f32) (main_arg4 : FVec F S1792x1792 .f32) (main_arg5 : FVec F S1792 .f32) : IVec S_ 1 :=
  let main_v0 : FVec F S8192x5x1792 .f32 := Host.absf main_arg0
  let main_cst : FVec F S_ .f32 := constant S_ .f32 0x7F800000#32
  let main_v1 : FVec F S8192x5x1792 .f32 := broadcastInDim S8192x5x1792 ![] bcast_S_S8192x5x1792 main_cst
  let main_v2 : IVec S8192x5x1792 1 := cmpf .olt main_v0 main_v1
  let main_c : IVec S_ 1 := constantI S_ 1 1#1
  let main_v3 : IVec S_ 1 := (fun x v => Host.reduce IntOp.andi x v reducesTo_S8192x5x1792_S_d0_1_2 h_S_) main_v2 main_c
  let main_v4 : FVec F S5376x1792 .f32 := Host.absf main_arg2
  let main_cst_0 : FVec F S_ .f32 := constant S_ .f32 0x7F800000#32
  let main_v5 : FVec F S5376x1792 .f32 := broadcastInDim S5376x1792 ![] bcast_S_S5376x1792 main_cst_0
  let main_v6 : IVec S5376x1792 1 := cmpf .olt main_v4 main_v5
  let main_c_1 : IVec S_ 1 := constantI S_ 1 1#1
  let main_v7 : IVec S_ 1 := (fun x v => Host.reduce IntOp.andi x v reducesTo_S5376x1792_S_d0_1 h_S_) main_v6 main_c_1
  let main_v8 : IVec S_ 1 := andi main_v3 main_v7
  let main_v9 : FVec F S5376 .f32 := Host.absf main_arg3
  let main_cst_2 : FVec F S_ .f32 := constant S_ .f32 0x7F800000#32
  let main_v10 : FVec F S5376 .f32 := broadcastInDim S5376 ![] bcast_S_S5376 main_cst_2
  let main_v11 : IVec S5376 1 := cmpf .olt main_v9 main_v10
  let main_c_3 : IVec S_ 1 := constantI S_ 1 1#1
  let main_v12 : IVec S_ 1 := (fun x v => Host.reduce IntOp.andi x v reducesTo_S5376_S_d0 h_S_) main_v11 main_c_3
  let main_v13 : IVec S_ 1 := andi main_v8 main_v12
  let main_v14 : FVec F S1792x1792 .f32 := Host.absf main_arg4
  let main_cst_4 : FVec F S_ .f32 := constant S_ .f32 0x7F800000#32
  let main_v15 : FVec F S1792x1792 .f32 := broadcastInDim S1792x1792 ![] bcast_S_S1792x1792 main_cst_4
  let main_v16 : IVec S1792x1792 1 := cmpf .olt main_v14 main_v15
  fn_part1 (F := F) main_arg5 main_v13 main_v16
-- ==== Kernel.lean ====
abbrev S8192x5x1792 : Shape := ⟨3, ![8192, 5, 1792]⟩
abbrev S5x5 : Shape := ⟨2, ![5, 5]⟩
abbrev S5376x1792 : Shape := ⟨2, ![5376, 1792]⟩
abbrev S5376 : Shape := ⟨1, ![5376]⟩
abbrev S1792x1792 : Shape := ⟨2, ![1792, 1792]⟩
abbrev S1792 : Shape := ⟨1, ![1792]⟩
abbrev S1792x5376 : Shape := ⟨2, ![1792, 5376]⟩
abbrev S1x5376 : Shape := ⟨2, ![1, 5376]⟩
abbrev S1x1792 : Shape := ⟨2, ![1, 1792]⟩
abbrev S_ : Shape := ⟨0, ![]⟩
abbrev S32x5x1792 : Shape := ⟨3, ![32, 5, 1792]⟩
abbrev S160x1792 : Shape := ⟨2, ![160, 1792]⟩
abbrev S160x5376 : Shape := ⟨2, ![160, 5376]⟩
abbrev S32x5x5376 : Shape := ⟨3, ![32, 5, 5376]⟩
abbrev S1x5x5 : Shape := ⟨3, ![1, 5, 5]⟩
abbrev S32x5x5 : Shape := ⟨3, ![32, 5, 5]⟩
abbrev S32x5x128 : Shape := ⟨3, ![32, 5, 128]⟩
abbrev S32x5 : Shape := ⟨2, ![32, 5]⟩
abbrev S32x5x1 : Shape := ⟨3, ![32, 5, 1]⟩

abbrev nBuf : Space → Nat
  | .hbm => 21
  | .vmem => 9
  | .smem => 0
  | _ => 0

abbrev bufTy : (tb : Table) → Fin (tcTables nBuf tb) → BufTy
  | .hbm, ⟨0, _⟩ => ⟨S8192x5x1792, .f32⟩
  | .hbm, ⟨1, _⟩ => ⟨S5x5, .i32⟩
  | .hbm, ⟨2, _⟩ => ⟨S5376x1792, .f32⟩
  | .hbm, ⟨3, _⟩ => ⟨S5376, .f32⟩
  | .hbm, ⟨4, _⟩ => ⟨S1792x1792, .f32⟩
  | .hbm, ⟨5, _⟩ => ⟨S1792, .f32⟩
  | .hbm, ⟨6, _⟩ => ⟨S1792x5376, .f32⟩
  | .hbm, ⟨7, _⟩ => ⟨S1792x5376, .bf16⟩
  | .hbm, ⟨8, _⟩ => ⟨S1792x1792, .f32⟩
  | .hbm, ⟨9, _⟩ => ⟨S1792x1792, .bf16⟩
  | .hbm, ⟨10, _⟩ => ⟨S1x5376, .f32⟩
  | .hbm, ⟨11, _⟩ => ⟨S1x1792, .f32⟩
  | .hbm, ⟨12, _⟩ => ⟨S_, .i32⟩
  | .hbm, ⟨13, _⟩ => ⟨S5x5, .i32⟩
  | .hbm, ⟨14, _⟩ => ⟨S5x5, .i1⟩
  | .hbm, ⟨15, _⟩ => ⟨S_, .f32⟩
  | .hbm, ⟨16, _⟩ => ⟨S_, .f32⟩
  | .hbm, ⟨17, _⟩ => ⟨S5x5, .f32⟩
  | .hbm, ⟨18, _⟩ => ⟨S5x5, .f32⟩
  | .hbm, ⟨19, _⟩ => ⟨S5x5, .f32⟩
  | .hbm, ⟨20, _⟩ => ⟨S8192x5x1792, .f32⟩
  | .local _ .vmem, ⟨0, _⟩ => ⟨S32x5x1792, .f32⟩
  | .local _ .vmem, ⟨1, _⟩ => ⟨S32x5x1792, .f32⟩
  | .local _ .vmem, ⟨2, _⟩ => ⟨S5x5, .f32⟩
  | .local _ .vmem, ⟨3, _⟩ => ⟨S1792x5376, .bf16⟩
  | .local _ .vmem, ⟨4, _⟩ => ⟨S1x5376, .f32⟩
  | .local _ .vmem, ⟨5, _⟩ => ⟨S1792x1792, .bf16⟩
  | .local _ .vmem, ⟨6, _⟩ => ⟨S1x1792, .f32⟩
  | .local _ .vmem, ⟨7, _⟩ => ⟨S32x5x1792, .f32⟩
  | .local _ .vmem, ⟨8, _⟩ => ⟨S32x5x1792, .f32⟩
  | _, _ => ⟨S8192x5x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x5x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x5x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S5376x1792_S1792x5376_1_0 : S5376x1792.Transposes [1, 0] S1792x5376
  bitsLt_bf16_f32 : FTy.bits .bf16 < FTy.bits .f32
  transposes_S1792x1792_S1792x1792_1_0 : S1792x1792.Transposes [1, 0] S1792x1792
  shapeCasts_S5376_S1x5376 : S5376.ShapeCasts S1x5376
  shapeCasts_S1792_S1x1792 : S1792.ShapeCasts S1x1792
  bcast_S_S5x5 : S_.BroadcastsInDim S5x5 (![] : Fin 0 → Fin S5x5.rank)
  inb_S32x5x1792_S32x5x1792_0_0_0 : ∀ a, (![0, 0, 0] : Fin 3 → Nat) a + S32x5x1792.size a ≤ S32x5x1792.size a
  h_S32x5x1792 : 0 < S32x5x1792.numel
  shapeCasts_S32x5x1792_S160x1792 : S32x5x1792.ShapeCasts S160x1792
  inb_S1792x5376_S1792x5376_0_0 : ∀ a, (![0, 0] : Fin 2 → Nat) a + S1792x5376.size a ≤ S1792x5376.size a
  h_S1792x5376 : 0 < S1792x5376.numel
  shapeCasts_S1792x5376_S1792x5376 : S1792x5376.ShapeCasts S1792x5376
  inb_S1x5376_S1x5376_0_0 : ∀ a, (![0, 0] : Fin 2 → Nat) a + S1x5376.size a ≤ S1x5376.size a
  h_S1x5376 : 0 < S1x5376.numel
  shapeCasts_S1x5376_S1x5376 : S1x5376.ShapeCasts S1x5376
  broadcasts_S1x5376_S160x5376 : S1x5376.Broadcasts S160x5376
  shapeCasts_S160x5376_S32x5x5376 : S160x5376.ShapeCasts S32x5x5376
  slices_S32x5x5376_o0_0_0_S32x5x1792 : S32x5x5376.Slices ![0, 0, 0] S32x5x1792
  slices_S32x5x5376_o0_0_1792_S32x5x1792 : S32x5x5376.Slices ![0, 0, 1792] S32x5x1792
  slices_S32x5x5376_o0_0_3584_S32x5x1792 : S32x5x5376.Slices ![0, 0, 3584] S32x5x1792
  inb_S5x5_S5x5_0_0 : ∀ a, (![0, 0] : Fin 2 → Nat) a + S5x5.size a ≤ S5x5.size a
  h_S5x5 : 0 < S5x5.numel
  shapeCasts_S5x5_S5x5 : S5x5.ShapeCasts S5x5
  shapeCasts_S5x5_S1x5x5 : S5x5.ShapeCasts S1x5x5
  shapeCasts_S1x5x5_S1x5x5 : S1x5x5.ShapeCasts S1x5x5
  broadcasts_S1x5x5_S32x5x5 : S1x5x5.Broadcasts S32x5x5
  slices_S32x5x1792_o0_0_0_S32x5x128 : S32x5x1792.Slices ![0, 0, 0] S32x5x128
  reduces_S32x5x5_S32x5 : S32x5x5.Reduces [2] S32x5
  shapeCasts_S32x5_S32x5x1 : S32x5.ShapeCasts S32x5x1
  broadcasts_S32x5x1_S32x5x5 : S32x5x1.Broadcasts S32x5x5
  slices_S32x5x1792_o0_0_128_S32x5x128 : S32x5x1792.Slices ![0, 0, 128] S32x5x128
  slices_S32x5x1792_o0_0_256_S32x5x128 : S32x5x1792.Slices ![0, 0, 256] S32x5x128
  slices_S32x5x1792_o0_0_384_S32x5x128 : S32x5x1792.Slices ![0, 0, 384] S32x5x128
  slices_S32x5x1792_o0_0_512_S32x5x128 : S32x5x1792.Slices ![0, 0, 512] S32x5x128
  slices_S32x5x1792_o0_0_640_S32x5x128 : S32x5x1792.Slices ![0, 0, 640] S32x5x128
  slices_S32x5x1792_o0_0_768_S32x5x128 : S32x5x1792.Slices ![0, 0, 768] S32x5x128
  slices_S32x5x1792_o0_0_896_S32x5x128 : S32x5x1792.Slices ![0, 0, 896] S32x5x128
  slices_S32x5x1792_o0_0_1024_S32x5x128 : S32x5x1792.Slices ![0, 0, 1024] S32x5x128
  slices_S32x5x1792_o0_0_1152_S32x5x128 : S32x5x1792.Slices ![0, 0, 1152] S32x5x128
  slices_S32x5x1792_o0_0_1280_S32x5x128 : S32x5x1792.Slices ![0, 0, 1280] S32x5x128
  slices_S32x5x1792_o0_0_1408_S32x5x128 : S32x5x1792.Slices ![0, 0, 1408] S32x5x128
  slices_S32x5x1792_o0_0_1536_S32x5x128 : S32x5x1792.Slices ![0, 0, 1536] S32x5x128
  slices_S32x5x1792_o0_0_1664_S32x5x128 : S32x5x1792.Slices ![0, 0, 1664] S32x5x128
  concatenates_S32x5x128_S32x5x128_S32x5x128_S32x5x128_S32x5x128_S32x5x128_S32x5x128_S32x5x128_S32x5x128_S32x5x128_S32x5x128_S32x5x128_S32x5x128_S32x5x128_S32x5x1792_d2 : Shape.Concatenates [S32x5x128, S32x5x128, S32x5x128, S32x5x128, S32x5x128, S32x5x128, S32x5x128, S32x5x128, S32x5x128, S32x5x128, S32x5x128, S32x5x128, S32x5x128, S32x5x128] S32x5x1792 2
  inb_S1792x1792_S1792x1792_0_0 : ∀ a, (![0, 0] : Fin 2 → Nat) a + S1792x1792.size a ≤ S1792x1792.size a
  h_S1792x1792 : 0 < S1792x1792.numel
  shapeCasts_S1792x1792_S1792x1792 : S1792x1792.ShapeCasts S1792x1792
  inb_S1x1792_S1x1792_0_0 : ∀ a, (![0, 0] : Fin 2 → Nat) a + S1x1792.size a ≤ S1x1792.size a
  h_S1x1792 : 0 < S1x1792.numel
  shapeCasts_S1x1792_S1x1792 : S1x1792.ShapeCasts S1x1792
  broadcasts_S1x1792_S160x1792 : S1x1792.Broadcasts S160x1792
  shapeCasts_S160x1792_S32x5x1792 : S160x1792.ShapeCasts S32x5x1792
  dot_S160x1792_S1792x5376_S160x5376_1_0_0_1_n_n_wf : DotDims.WF S160x1792 S1792x5376 S160x5376 [1] [0] [0] [1] [] []
  dot_S32x5x128_S32x5x128_S32x5x5_2_2_1_1_0_0_wf : DotDims.WF S32x5x128 S32x5x128 S32x5x5 [2] [2] [1] [1] [0] [0]
  dot_S32x5x5_S32x5x128_S32x5x128_2_1_1_2_0_0_wf : DotDims.WF S32x5x5 S32x5x128 S32x5x128 [2] [1] [1] [2] [0] [0]
  dot_S160x1792_S1792x1792_S160x1792_1_0_0_1_n_n_wf : DotDims.WF S160x1792 S1792x1792 S160x1792 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x5x1792.size a ≤ S8192x5x1792.size a
  hwx0_0 : ∀ i : grid0.Coords, EltTy.bits .f32 = 32 ∨ (Rect.block (s := S8192x5x1792) S32x5x1792.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x5.size a ≤ S5x5.size a
  hwx0_1 : ∀ i : grid0.Coords, EltTy.bits .f32 = 32 ∨ (Rect.block (s := S5x5) S5x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1792x5376.size a ≤ S1792x5376.size a
  hwx0_2 : ∀ i : grid0.Coords, EltTy.bits .bf16 = 32 ∨ (Rect.block (s := S1792x5376) S1792x5376.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5376.size a ≤ S1x5376.size a
  hwx0_3 : ∀ i : grid0.Coords, EltTy.bits .f32 = 32 ∨ (Rect.block (s := S1x5376) S1x5376.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1792x1792.size a ≤ S1792x1792.size a
  hwx0_4 : ∀ i : grid0.Coords, EltTy.bits .bf16 = 32 ∨ (Rect.block (s := S1792x1792) S1792x1792.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1792.size a ≤ S1x1792.size a
  hwx0_5 : ∀ i : grid0.Coords, EltTy.bits .f32 = 32 ∨ (Rect.block (s := S1x1792) S1x1792.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x5x1792.size a ≤ S8192x5x1792.size a
  hwx0_6 : ∀ i : grid0.Coords, EltTy.bits .f32 = 32 ∨ (Rect.block (s := S8192x5x1792) S32x5x1792.size (cc0_transform_6 i) (hinb0_6 i)).WholeWords (EltTy.packing .f32)

variable [Facts₀]

def dot_S160x1792_S1792x5376_S160x5376_1_0_0_1_n_n : DotDims S160x1792 S1792x5376 S160x5376 where
  lhsContracting := [1]
  rhsContracting := [0]
  lhsNonContracting := [0]
  rhsNonContracting := [1]
  lhsBatch := []
  rhsBatch := []
  wf := dot_S160x1792_S1792x5376_S160x5376_1_0_0_1_n_n_wf
def dot_S32x5x128_S32x5x128_S32x5x5_2_2_1_1_0_0 : DotDims S32x5x128 S32x5x128 S32x5x5 where
  lhsContracting := [2]
  rhsContracting := [2]
  lhsNonContracting := [1]
  rhsNonContracting := [1]
  lhsBatch := [0]
  rhsBatch := [0]
  wf := dot_S32x5x128_S32x5x128_S32x5x5_2_2_1_1_0_0_wf
def dot_S32x5x5_S32x5x128_S32x5x128_2_1_1_2_0_0 : DotDims S32x5x5 S32x5x128 S32x5x128 where
  lhsContracting := [2]
  rhsContracting := [1]
  lhsNonContracting := [1]
  rhsNonContracting := [2]
  lhsBatch := [0]
  rhsBatch := [0]
  wf := dot_S32x5x5_S32x5x128_S32x5x128_2_1_1_2_0_0_wf
def dot_S160x1792_S1792x1792_S160x1792_1_0_0_1_n_n : DotDims S160x1792 S1792x1792 S160x1792 where
  lhsContracting := [1]
  rhsContracting := [0]
  lhsNonContracting := [0]
  rhsNonContracting := [1]
  lhsBatch := []
  rhsBatch := []
  wf := dot_S160x1792_S1792x1792_S160x1792_1_0_0_1_n_n_wf

abbrev win0_0 : Pipeline.Window sig grid0 :=
  Pipeline.Window.ofSpec (Memref.whole main_arg0) S32x5x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1792x5376.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x5376.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1792x1792.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1792.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S32x5x1792.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x5x1792 : Shape := ⟨3, ![8192, 5, 1792]⟩
abbrev S5x5 : Shape := ⟨2, ![5, 5]⟩
abbrev S5376x1792 : Shape := ⟨2, ![5376, 1792]⟩
abbrev S5376 : Shape := ⟨1, ![5376]⟩
abbrev S1792x1792 : Shape := ⟨2, ![1792, 1792]⟩
abbrev S1792 : Shape := ⟨1, ![1792]⟩
abbrev S_ : Shape := ⟨0, ![]⟩
abbrev S8192x5x5376 : Shape := ⟨3, ![8192, 5, 5376]⟩
abbrev S1x1x5376 : Shape := ⟨3, ![1, 1, 5376]⟩
abbrev S8192x5x14x128 : Shape := ⟨4, ![8192, 5, 14, 128]⟩
abbrev S8192x14x5x128 : Shape := ⟨4, ![8192, 14, 5, 128]⟩
abbrev S8192x14x5x5 : Shape := ⟨4, ![8192, 14, 5, 5]⟩
abbrev S1x1x5x5 : Shape := ⟨4, ![1, 1, 5, 5]⟩
abbrev S8192x14x5 : Shape := ⟨3, ![8192, 14, 5]⟩
abbrev S8192x14x5x1 : Shape := ⟨4, ![8192, 14, 5, 1]⟩
abbrev S1x1x1792 : Shape := ⟨3, ![1, 1, 1792]⟩

abbrev nBuf : Space → Nat
  | .hbm => 55
  | .vmem => 0
  | .smem => 0
  | _ => 0

abbrev bufTy : (tb : Table) → Fin (tcTables nBuf tb) → BufTy
  | .hbm, ⟨0, _⟩ => ⟨S8192x5x1792, .f32⟩
  | .hbm, ⟨1, _⟩ => ⟨S5x5, .i32⟩
  | .hbm, ⟨2, _⟩ => ⟨S5376x1792, .f32⟩
  | .hbm, ⟨3, _⟩ => ⟨S5376, .f32⟩
  | .hbm, ⟨4, _⟩ => ⟨S1792x1792, .f32⟩
  | .hbm, ⟨5, _⟩ => ⟨S1792, .f32⟩
  | .hbm, ⟨6, _⟩ => ⟨S_, .f32⟩
  | .hbm, ⟨7, _⟩ => ⟨S8192x5x5376, .f32⟩
  | .hbm, ⟨8, _⟩ => ⟨S1x1x5376, .f32⟩
  | .hbm, ⟨9, _⟩ => ⟨S8192x5x5376, .f32⟩
  | .hbm, ⟨10, _⟩ => ⟨S8192x5x5376, .f32⟩
  | .hbm, ⟨11, _⟩ => ⟨S8192x5x1792, .f32⟩
  | .hbm, ⟨12, _⟩ => ⟨S8192x5x1792, .f32⟩
  | .hbm, ⟨13, _⟩ => ⟨S8192x5x1792, .f32⟩
  | .hbm, ⟨14, _⟩ => ⟨S8192x5x14x128, .f32⟩
  | .hbm, ⟨15, _⟩ => ⟨S8192x14x5x128, .f32⟩
  | .hbm, ⟨16, _⟩ => ⟨S8192x5x14x128, .f32⟩
  | .hbm, ⟨17, _⟩ => ⟨S8192x14x5x128, .f32⟩
  | .hbm, ⟨18, _⟩ => ⟨S8192x5x14x128, .f32⟩
  | .hbm, ⟨19, _⟩ => ⟨S8192x14x5x128, .f32⟩
  | .hbm, ⟨20, _⟩ => ⟨S8192x14x5x5, .f32⟩
  | .hbm, ⟨21, _⟩ => ⟨S_, .f32⟩
  | .hbm, ⟨22, _⟩ => ⟨S8192x14x5x5, .f32⟩
  | .hbm, ⟨23, _⟩ => ⟨S8192x14x5x5, .f32⟩
  | .hbm, ⟨24, _⟩ => ⟨S_, .i32⟩
  | .hbm, ⟨25, _⟩ => ⟨S5x5, .i32⟩
  | .hbm, ⟨26, _⟩ => ⟨S5x5, .i1⟩
  | .hbm, ⟨27, _⟩ => ⟨S_, .f32⟩
  | .hbm, ⟨28, _⟩ => ⟨S5x5, .f32⟩
  | .hbm, ⟨29, _⟩ => ⟨S5x5, .f32⟩
  | .hbm, ⟨30, _⟩ => ⟨S5x5, .f32⟩
  | .hbm, ⟨31, _⟩ => ⟨S1x1x5x5, .f32⟩
  | .hbm, ⟨32, _⟩ => ⟨S8192x14x5x5, .f32⟩
  | .hbm, ⟨33, _⟩ => ⟨S8192x14x5x5, .f32⟩
  | .hbm, ⟨34, _⟩ => ⟨S_, .f32⟩
  | .hbm, ⟨35, _⟩ => ⟨S8192x14x5, .f32⟩
  | .hbm, ⟨36, _⟩ => ⟨S_, .f32⟩
  | .hbm, ⟨37, _⟩ => ⟨S8192x14x5, .f32⟩
  | .hbm, ⟨38, _⟩ => ⟨S8192x14x5, .f32⟩
  | .hbm, ⟨39, _⟩ => ⟨S8192x14x5x1, .f32⟩
  | .hbm, ⟨40, _⟩ => ⟨S8192x14x5x5, .f32⟩
  | .hbm, ⟨41, _⟩ => ⟨S8192x14x5x5, .f32⟩
  | .hbm, ⟨42, _⟩ => ⟨S8192x14x5x5, .f32⟩
  | .hbm, ⟨43, _⟩ => ⟨S_, .f32⟩
  | .hbm, ⟨44, _⟩ => ⟨S8192x14x5, .f32⟩
  | .hbm, ⟨45, _⟩ => ⟨S8192x14x5x1, .f32⟩
  | .hbm, ⟨46, _⟩ => ⟨S8192x14x5x5, .f32⟩
  | .hbm, ⟨47, _⟩ => ⟨S8192x14x5x5, .f32⟩
  | .hbm, ⟨48, _⟩ => ⟨S8192x14x5x128, .f32⟩
  | .hbm, ⟨49, _⟩ => ⟨S8192x5x14x128, .f32⟩
  | .hbm, ⟨50, _⟩ => ⟨S8192x5x1792, .f32⟩
  | .hbm, ⟨51, _⟩ => ⟨S8192x5x1792, .f32⟩
  | .hbm, ⟨52, _⟩ => ⟨S1x1x1792, .f32⟩
  | .hbm, ⟨53, _⟩ => ⟨S8192x5x1792, .f32⟩
  | .hbm, ⟨54, _⟩ => ⟨S8192x5x1792, .f32⟩
  | _, _ => ⟨S8192x5x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S5376_S1x1x5376_2 : S5376.BroadcastsInDim S1x1x5376 (![2] : Fin 1 → Fin S1x1x5376.rank)
  bcast_S1x1x5376_S8192x5x5376_0_1_2 : S1x1x5376.BroadcastsInDim S8192x5x5376 (![0, 1, 2] : Fin 3 → Fin S8192x5x5376.rank)
  slices_S8192x5x5376_S8192x5x1792_0_0_0 : S8192x5x5376.Slices ![0, 0, 0] S8192x5x1792
  slices_S8192x5x5376_S8192x5x1792_0_0_1792 : S8192x5x5376.Slices ![0, 0, 1792] S8192x5x1792
  slices_S8192x5x5376_S8192x5x1792_0_0_3584 : S8192x5x5376.Slices ![0, 0, 3584] S8192x5x1792
  shapeCasts_S8192x5x1792_S8192x5x14x128 : S8192x5x1792.ShapeCasts S8192x5x14x128
  transposes_S8192x5x14x128_S8192x14x5x128_0_2_1_3 : S8192x5x14x128.Transposes [0, 2, 1, 3] S8192x14x5x128
  bcast_S_S8192x14x5x5 : S_.BroadcastsInDim S8192x14x5x5 (![] : Fin 0 → Fin S8192x14x5x5.rank)
  bcast_S_S5x5 : S_.BroadcastsInDim S5x5 (![] : Fin 0 → Fin S5x5.rank)
  bcast_S5x5_S1x1x5x5_2_3 : S5x5.BroadcastsInDim S1x1x5x5 (![2, 3] : Fin 2 → Fin S1x1x5x5.rank)
  bcast_S1x1x5x5_S8192x14x5x5_0_1_2_3 : S1x1x5x5.BroadcastsInDim S8192x14x5x5 (![0, 1, 2, 3] : Fin 4 → Fin S8192x14x5x5.rank)
  reducesTo_S8192x14x5x5_S8192x14x5_d3 : S8192x14x5x5.ReducesTo [3] S8192x14x5
  h_S_ : 0 < S_.numel
  bcast_S_S8192x14x5 : S_.BroadcastsInDim S8192x14x5 (![] : Fin 0 → Fin S8192x14x5.rank)
  bcast_S8192x14x5_S8192x14x5x1_0_1_2 : S8192x14x5.BroadcastsInDim S8192x14x5x1 (![0, 1, 2] : Fin 3 → Fin S8192x14x5x1.rank)
  bcast_S8192x14x5x1_S8192x14x5x5_0_1_2_3 : S8192x14x5x1.BroadcastsInDim S8192x14x5x5 (![0, 1, 2, 3] : Fin 4 → Fin S8192x14x5x5.rank)
  transposes_S8192x14x5x128_S8192x5x14x128_0_2_1_3 : S8192x14x5x128.Transposes [0, 2, 1, 3] S8192x5x14x128
  shapeCasts_S8192x5x14x128_S8192x5x1792 : S8192x5x14x128.ShapeCasts S8192x5x1792
  bcast_S1792_S1x1x1792_2 : S1792.BroadcastsInDim S1x1x1792 (![2] : Fin 1 → Fin S1x1x1792.rank)
  bcast_S1x1x1792_S8192x5x1792_0_1_2 : S1x1x1792.BroadcastsInDim S8192x5x1792 (![0, 1, 2] : Fin 3 → Fin S8192x5x1792.rank)
  dot_S8192x5x1792_S5376x1792_S8192x5x5376_2_1_01_0_n_n_wf : DotDims.WF S8192x5x1792 S5376x1792 S8192x5x5376 [2] [1] [0, 1] [0] [] []
  dot_S8192x14x5x128_S8192x14x5x128_S8192x14x5x5_3_3_2_2_01_01_wf : DotDims.WF S8192x14x5x128 S8192x14x5x128 S8192x14x5x5 [3] [3] [2] [2] [0, 1] [0, 1]
  dot_S8192x14x5x5_S8192x14x5x128_S8192x14x5x128_3_2_2_3_01_01_wf : DotDims.WF S8192x14x5x5 S8192x14x5x128 S8192x14x5x128 [3] [2] [2] [3] [0, 1] [0, 1]
  dot_S8192x5x1792_S1792x1792_S8192x5x1792_2_1_01_0_n_n_wf : DotDims.WF S8192x5x1792 S1792x1792 S8192x5x1792 [2] [1] [0, 1] [0] [] []

variable [Facts₀]

def dot_S8192x5x1792_S5376x1792_S8192x5x5376_2_1_01_0_n_n : DotDims S8192x5x1792 S5376x1792 S8192x5x5376 where
  lhsContracting := [2]
  rhsContracting := [1]
  lhsNonContracting := [0, 1]
  rhsNonContracting := [0]
  lhsBatch := []
  rhsBatch := []
  wf := dot_S8192x5x1792_S5376x1792_S8192x5x5376_2_1_01_0_n_n_wf
def dot_S8192x14x5x128_S8192x14x5x128_S8192x14x5x5_3_3_2_2_01_01 : DotDims S8192x14x5x128 S8192x14x5x128 S8192x14x5x5 where
  lhsContracting := [3]
  rhsContracting := [3]
  lhsNonContracting := [2]
  rhsNonContracting := [2]
  lhsBatch := [0, 1]
  rhsBatch := [0, 1]
  wf := dot_S8192x14x5x128_S8192x14x5x128_S8192x14x5x5_3_3_2_2_01_01_wf
def dot_S8192x14x5x5_S8192x14x5x128_S8192x14x5x128_3_2_2_3_01_01 : DotDims S8192x14x5x5 S8192x14x5x128 S8192x14x5x128 where
  lhsContracting := [3]
  rhsContracting := [2]
  lhsNonContracting := [2]
  rhsNonContracting := [3]
  lhsBatch := [0, 1]
  rhsBatch := [0, 1]
  wf := dot_S8192x14x5x5_S8192x14x5x128_S8192x14x5x128_3_2_2_3_01_01_wf
def dot_S8192x5x1792_S1792x1792_S8192x5x1792_2_1_01_0_n_n : DotDims S8192x5x1792 S1792x1792 S8192x5x1792 where
  lhsContracting := [2]
  rhsContracting := [1]
  lhsNonContracting := [0, 1]
  rhsNonContracting := [0]
  lhsBatch := []
  rhsBatch := []
  wf := dot_S8192x5x1792_S1792x1792_S8192x5x1792_2_1_01_0_n_n_wf

class Facts : Prop extends Facts₀ where

variable [Facts]
-- ==== Proof.KernelBody.lean ====
/-
  The kernel body's shape. The body computes the input projection once, cuts it into queries,
  keys and values, runs fourteen copies of one head computation that differ only in the column
  offset 128·h at which they cut their 128 columns, lays the fourteen results side by side and
  applies the output projection. Here the head computation is written once with the offset as a
  parameter, and each of the body's fourteen head values is identified with it by unfolding.
-/
import proofs.«109473_j28509992910915_2_alg».proof.Proof.Gen.KernelIdeal.Frame

noncomputable section

namespace Cert.KernelIdeal.Body

open Cert.KernelIdeal Cert.KernelIdeal.Gen Idealize.ShloMosaic Idealize.SL.Sem

variable {F : FTy → Type} [FloatOps F] [Named F]

/-- The scaled, masked scores of the head whose columns start at `o`: query slice times key slice,
    contracted over the 128 lanes, times the named scale, plus the mask. -/
def scoreK (q k : FVec F S32x5x1792 .f32) (mb : FVec F S32x5x5 .f32) (o : Nat) (hs : S32x5x1792.Slices ![0, 0, o] S32x5x128) :
    FVec F S32x5x5 .f32 :=
  addf (mulf (matmul dot_S32x5x128_S32x5x128_S32x5x5_2_2_1_1_0_0 none
      (truncf .bf16 (extractStridedSlice S32x5x128 ![0, 0, o] q hs) bitsLt_bf16_f32)
      (truncf .bf16 (extractStridedSlice S32x5x128 ![0, 0, o] k hs) bitsLt_bf16_f32)
      (constant S32x5x5 .f32 0x00000000#32))
    (broadcast S32x5x5 (Named.named κ "inv_sqrt_hd" 0x3DB504F3#32))) mb

/-- A [32, 5] array of per-row values spread along a new last axis of length 5. -/
def spreadK (r : FVec F S32x5 .f32) : FVec F S32x5x5 .f32 :=
  broadcastTo S32x5x5 (shapeCast S32x5x1 r shapeCasts_S32x5_S32x5x1) broadcasts_S32x5x1_S32x5x5

/-- The exponentials of the scores shifted by their row maximum. -/
def expK (s : FVec F S32x5x5 .f32) : FVec F S32x5x5 .f32 :=
  exp (subf s (spreadK (multiReduction .maximumf [2] S32x5 s 0xFF800000#32 reduces_S32x5x5_S32x5 (.inl rfl) rfl)))

/-- The softmax weights: the exponentials over their row sums. -/
def softK (p : FVec F S32x5x5 .f32) : FVec F S32x5x5 .f32 :=
  divf p (spreadK (multiReduction .add [2] S32x5 p 0x00000000#32 reduces_S32x5x5_S32x5 (.inl rfl) rfl))

/-- The head whose columns start at `o`: softmax weights times the value slice. -/
def headK (q k v : FVec F S32x5x1792 .f32) (mb : FVec F S32x5x5 .f32) (o : Nat) (hs : S32x5x1792.Slices ![0, 0, o] S32x5x128) :
    FVec F S32x5x128 .f32 :=
  matmul dot_S32x5x5_S32x5x128_S32x5x128_2_1_1_2_0_0 none
    (truncf .bf16 (softK (expK (scoreK q k mb o hs))) bitsLt_bf16_f32)
    (truncf .bf16 (extractStridedSlice S32x5x128 ![0, 0, o] v hs) bitsLt_bf16_f32)
    (constant S32x5x128 .f32 0x00000000#32)

/-- Every offset 128·h of the fourteen heads cuts 128 columns inside the 1792. -/
theorem slices_head (h : Fin 14) : S32x5x1792.Slices ![0, 0, 128 * h.val] S32x5x128 :=
  ⟨rfl, fun a => by
    have hh := h.isLt
    match a with
    | ⟨0, _⟩ => show 0 + 32 ≤ 32; omega
    | ⟨1, _⟩ => show 0 + 5 ≤ 5; omega
    | ⟨2, _⟩ => show 128 * h.val + 128 ≤ 1792; omega⟩

/-- The input projection with its bias, as the body computes it from the three loaded blocks. -/
def projK (x0 : Vec F S32x5x1792 .f32) (x2 : Vec F S1792x5376 .bf16) (x3 : Vec F S1x5376 .f32) : FVec F S32x5x5376 .f32 :=
  shapeCast S32x5x5376
    (addf (matmul dot_S160x1792_S1792x5376_S160x5376_1_0_0_1_n_n none
        (shapeCast S160x1792 (truncf .bf16 x0 bitsLt_bf16_f32) shapeCasts_S32x5x1792_S160x1792)
        (shapeCast S1792x5376 x2 shapeCasts_S1792x5376_S1792x5376)
        (constant S160x5376 .f32 0x00000000#32))
      (broadcastTo S160x5376 (shapeCast S1x5376 x3 shapeCasts_S1x5376_S1x5376) broadcasts_S1x5376_S160x5376))
    shapeCasts_S160x5376_S32x5x5376

theorem pay1_eq (x0 : Vec F S32x5x1792 .f32) (x2 : Vec F S1792x5376 .bf16) (x3 : Vec F S1x5376 .f32) :
    k0_pay1 x0 x2 x3 = projK x0 x2 x3 := rfl

/-- The queries, keys and values: the three thirds of the projection's columns. -/
def qK (p : FVec F S32x5x5376 .f32) : FVec F S32x5x1792 .f32 := extractStridedSlice S32x5x1792 ![0, 0, 0] p slices_S32x5x5376_o0_0_0_S32x5x1792
def kK (p : FVec F S32x5x5376 .f32) : FVec F S32x5x1792 .f32 := extractStridedSlice S32x5x1792 ![0, 0, 1792] p slices_S32x5x5376_o0_0_1792_S32x5x1792
def vK (p : FVec F S32x5x5376 .f32) : FVec F S32x5x1792 .f32 := extractStridedSlice S32x5x1792 ![0, 0, 3584] p slices_S32x5x5376_o0_0_3584_S32x5x1792

/-- The mask block spread over the 32 batch rows. -/
def maskK (x1 : Vec F S5x5 .f32) : FVec F S32x5x5 .f32 :=
  broadcastTo S32x5x5 (shapeCast S1x5x5 (shapeCast S1x5x5 (shapeCast S5x5 x1 shapeCasts_S5x5_S5x5) shapeCasts_S5x5_S1x5x5) shapeCasts_S1x5x5_S1x5x5) broadcasts_S1x5x5_S32x5x5

theorem pay2_eq (x0 : Vec F S32x5x1792 .f32) (x2 : Vec F S1792x5376 .bf16) (x3 : Vec F S1x5376 .f32) : k0_pay2 x0 x2 x3 = qK (projK x0 x2 x3) := rfl
theorem pay3_eq (x0 : Vec F S32x5x1792 .f32) (x2 : Vec F S1792x5376 .bf16) (x3 : Vec F S1x5376 .f32) : k0_pay3 x0 x2 x3 = kK (projK x0 x2 x3) := rfl
theorem pay4_eq (x0 : Vec F S32x5x1792 .f32) (x2 : Vec F S1792x5376 .bf16) (x3 : Vec F S1x5376 .f32) : k0_pay4 x0 x2 x3 = vK (projK x0 x2 x3) := rfl
theorem pay5_eq (x1 : Vec F S5x5 .f32) : k0_pay5 x1 = maskK x1 := rfl

/-- The fourteen head values of the body, as a family. -/
def headsK (L0 : Vec F S32x5x1792 .f32) (L1 : Vec F S5x5 .f32) (L2 : Vec F S1792x5376 .bf16) (L3 : Vec F S1x5376 .f32) :
    Fin 14 → FVec F S32x5x128 .f32 :=
  fun h => headK (qK (projK L0 L2 L3)) (kK (projK L0 L2 L3)) (vK (projK L0 L2 L3)) (maskK L1) (128 * h.val) (slices_head h)

theorem head0_eq (L0 : Vec F S32x5x1792 .f32) (L1 : Vec F S5x5 .f32) (L2 : Vec F S1792x5376 .bf16) (L3 : Vec F S1x5376 .f32) :
    (k0_pay6 L0 L2 L3 L1) = headsK L0 L1 L2 L3 0 := rfl
theorem head1_eq (L0 : Vec F S32x5x1792 .f32) (L1 : Vec F S5x5 .f32) (L2 : Vec F S1792x5376 .bf16) (L3 : Vec F S1x5376 .f32) :
    (k0_pay9 (k0_pay4 L0 L2 L3) (k0_pay5 L1) (k0_pay7 L0 L2 L3) (k0_pay8 L0 L2 L3)) = headsK L0 L1 L2 L3 1 := rfl
theorem head2_eq (L0 : Vec F S32x5x1792 .f32) (L1 : Vec F S5x5 .f32) (L2 : Vec F S1792x5376 .bf16) (L3 : Vec F S1x5376 .f32) :
    (k0_pay10 (k0_pay2 L0 L2 L3) (k0_pay3 L0 L2 L3) (k0_pay4 L0 L2 L3) (k0_pay5 L1)) = headsK L0 L1 L2 L3 2 := rfl
theorem head3_eq (L0 : Vec F S32x5x1792 .f32) (L1 : Vec F S5x5 .f32) (L2 : Vec F S1792x5376 .bf16) (L3 : Vec F S1x5376 .f32) :
    (k0_pay13 (k0_pay11 (k0_pay4 L0 L2 L3)) (k0_pay12 (k0_pay2 L0 L2 L3) (k0_pay3 L0 L2 L3) (k0_pay5 L1))) = headsK L0 L1 L2 L3 3 := rfl
theorem head4_eq (L0 : Vec F S32x5x1792 .f32) (L1 : Vec F S5x5 .f32) (L2 : Vec F S1792x5376 .bf16) (L3 : Vec F S1x5376 .f32) :
    (k0_pay14 (k0_pay2 L0 L2 L3) (k0_pay3 L0 L2 L3) (k0_pay4 L0 L2 L3) (k0_pay5 L1)) = headsK L0 L1 L2 L3 4 := rfl
theorem head5_eq (L0 : Vec F S32x5x1792 .f32) (L1 : Vec F S5x5 .f32) (L2 : Vec F S1792x5376 .bf16) (L3 : Vec F S1x5376 .f32) :
    (k0_pay18 (k0_pay15 (k0_pay4 L0 L2 L3)) (k0_pay16 (k0_pay2 L0 L2 L3) (k0_pay3 L0 L2 L3) (k0_pay5 L1)) (k0_pay17 (k0_pay2 L0 L2 L3) (k0_pay3 L0 L2 L3) (k0_pay5 L1))) = headsK L0 L1 L2 L3 5 := rfl
theorem head6_eq (L0 : Vec F S32x5x1792 .f32) (L1 : Vec F S5x5 .f32) (L2 : Vec F S1792x5376 .bf16) (L3 : Vec F S1x5376 .f32) :
    (k0_pay19 (k0_pay2 L0 L2 L3) (k0_pay3 L0 L2 L3) (k0_pay4 L0 L2 L3) (k0_pay5 L1)) = headsK L0 L1 L2 L3 6 := rfl
theorem head7_eq (L0 : Vec F S32x5x1792 .f32) (L1 : Vec F S5x5 .f32) (L2 : Vec F S1792x5376 .bf16) (L3 : Vec F S1x5376 .f32) :
    (k0_pay20 (k0_pay2 L0 L2 L3) (k0_pay3 L0 L2 L3) (k0_pay4 L0 L2 L3) (k0_pay5 L1)) = headsK L0 L1 L2 L3 7 := rfl
theorem head8_eq (L0 : Vec F S32x5x1792 .f32) (L1 : Vec F S5x5 .f32) (L2 : Vec F S1792x5376 .bf16) (L3 : Vec F S1x5376 .f32) :
    (k0_pay22 (k0_pay3 L0 L2 L3) (k0_pay4 L0 L2 L3) (k0_pay5 L1) (k0_pay21 (k0_pay2 L0 L2 L3))) = headsK L0 L1 L2 L3 8 := rfl
theorem head9_eq (L0 : Vec F S32x5x1792 .f32) (L1 : Vec F S5x5 .f32) (L2 : Vec F S1792x5376 .bf16) (L3 : Vec F S1x5376 .f32) :
    (k0_pay23 (k0_pay2 L0 L2 L3) (k0_pay3 L0 L2 L3) (k0_pay4 L0 L2 L3) (k0_pay5 L1)) = headsK L0 L1 L2 L3 9 := rfl
theorem head10_eq (L0 : Vec F S32x5x1792 .f32) (L1 : Vec F S5x5 .f32) (L2 : Vec F S1792x5376 .bf16) (L3 : Vec F S1x5376 .f32) :
    (k0_pay27 (k0_pay5 L1) (k0_pay24 (k0_pay4 L0 L2 L3)) (k0_pay25 (k0_pay2 L0 L2 L3) (k0_pay3 L0 L2 L3)) (k0_pay26 (F := F))) = headsK L0 L1 L2 L3 10 := rfl
theorem head11_eq (L0 : Vec F S32x5x1792 .f32) (L1 : Vec F S5x5 .f32) (L2 : Vec F S1792x5376 .bf16) (L3 : Vec F S1x5376 .f32) :
    (k0_pay28 (k0_pay2 L0 L2 L3) (k0_pay3 L0 L2 L3) (k0_pay4 L0 L2 L3) (k0_pay5 L1)) = headsK L0 L1 L2 L3 11 := rfl
theorem head12_eq (L0 : Vec F S32x5x1792 .f32) (L1 : Vec F S5x5 .f32) (L2 : Vec F S1792x5376 .bf16) (L3 : Vec F S1x5376 .f32) :
    (k0_pay31 (k0_pay29 (k0_pay4 L0 L2 L3)) (k0_pay30 (k0_pay2 L0 L2 L3) (k0_pay3 L0 L2 L3) (k0_pay5 L1))) = headsK L0 L1 L2 L3 12 := rfl
theorem head13_eq (L0 : Vec F S32x5x1792 .f32) (L1 : Vec F S5x5 .f32) (L2 : Vec F S1792x5376 .bf16) (L3 : Vec F S1x5376 .f32) :
    (k0_pay32 (k0_pay2 L0 L2 L3) (k0_pay3 L0 L2 L3) (k0_pay4 L0 L2 L3) (k0_pay5 L1)) = headsK L0 L1 L2 L3 13 := rfl

end Cert.KernelIdeal.Body

end
-- ==== Proof.KernelDots.lean ====
/-
  The kernel's four matrix products, each read at one output entry as a plain finite sum.
  At the extended reals a product into the zero accumulator is the sum, over the single
  contracted coordinate, of the two operands' entries; the batch and free coordinates of
  each operand are copied from the output entry. Nothing else about the products is used.
-/
import proofs.«109473_j28509992910915_2_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-- The input projection: rows are the 160 = 32·5 (batch, vertex) pairs, the contraction runs over
    the 1792 features: entry (r, e) is the sum over k of L (r, k) · R (k, e). -/
theorem inProj_apply (L : FVec Ideal S160x1792 .bf16) (R : FVec Ideal S1792x5376 .bf16) (r : Fin 160) (e : Fin 5376) :
    matmul dot_S160x1792_S1792x5376_S160x5376_1_0_0_1_n_n none L R (constant S160x5376 .f32 0x00000000#32) (ix2 r e)
      = ∑ k : Fin 1792, L (ix2 r k) * R (ix2 k e) := by
  refine (Ideal.matmul_constant_zero_apply _ none _ _ _).trans ?_
  rw [← Equiv.sum_comp (contrEquiv1 dot_S160x1792_S1792x5376_S160x5376_1_0_0_1_n_n 1792 rfl rfl).symm]
  refine Finset.sum_congr rfl fun k _ => ?_
  have hk := contrEquiv1_symm_val dot_S160x1792_S1792x5376_S160x5376_1_0_0_1_n_n 1792 rfl rfl k
  have l0 : ∀ q, (dot_S160x1792_S1792x5376_S160x5376_1_0_0_1_n_n.lhsIdx (ix2 r e) q 0).val = r.val := fun q => by
    unfold DotDims.lhsIdx
    rw [dif_neg (show ¬(0 : Fin S160x1792.rank) ∈ dot_S160x1792_S1792x5376_S160x5376_1_0_0_1_n_n.lhsBatch by decide), dif_pos (show (0 : Fin S160x1792.rank) ∈ dot_S160x1792_S1792x5376_S160x5376_1_0_0_1_n_n.lhsNonContracting by decide)]
    rfl
  have l1 : ∀ q, (dot_S160x1792_S1792x5376_S160x5376_1_0_0_1_n_n.lhsIdx (ix2 r e) q 1).val = (q ⟨0, by decide⟩).val := fun q =>
    dot_S160x1792_S1792x5376_S160x5376_1_0_0_1_n_n.lhsIdx_val_of_single rfl _ q
  have r0 : ∀ q, (dot_S160x1792_S1792x5376_S160x5376_1_0_0_1_n_n.rhsIdx (ix2 r e) q 0).val = (q ⟨0, by decide⟩).val := fun q =>
    dot_S160x1792_S1792x5376_S160x5376_1_0_0_1_n_n.rhsIdx_val_of_single rfl _ q
  have r1 : ∀ q, (dot_S160x1792_S1792x5376_S160x5376_1_0_0_1_n_n.rhsIdx (ix2 r e) q 1).val = e.val := fun q => by
    unfold DotDims.rhsIdx
    rw [dif_neg (show ¬(1 : Fin S1792x5376.rank) ∈ dot_S160x1792_S1792x5376_S160x5376_1_0_0_1_n_n.rhsBatch by decide), dif_pos (show (1 : Fin S1792x5376.rank) ∈ dot_S160x1792_S1792x5376_S160x5376_1_0_0_1_n_n.rhsNonContracting by decide)]
    rfl
  have el : dot_S160x1792_S1792x5376_S160x5376_1_0_0_1_n_n.lhsIdx (ix2 r e) ((contrEquiv1 dot_S160x1792_S1792x5376_S160x5376_1_0_0_1_n_n 1792 rfl rfl).symm k) = ix2 r k :=
    funext fun a => Fin.ext (by
      match a with
      | ⟨0, _⟩ => exact l0 _
      | ⟨1, _⟩ => exact (l1 _).trans hk)
  have er : dot_S160x1792_S1792x5376_S160x5376_1_0_0_1_n_n.rhsIdx (ix2 r e) ((contrEquiv1 dot_S160x1792_S1792x5376_S160x5376_1_0_0_1_n_n 1792 rfl rfl).symm k) = ix2 k e :=
    funext fun a => Fin.ext (by
      match a with
      | ⟨0, _⟩ => exact (r0 _).trans hk
      | ⟨1, _⟩ => exact r1 _)
  rw [el, er]

/-- The output projection, the same arrangement with 1792 output columns. -/
theorem outProj_apply (L : FVec Ideal S160x1792 .bf16) (R : FVec Ideal S1792x1792 .bf16) (r : Fin 160) (f : Fin 1792) :
    matmul dot_S160x1792_S1792x1792_S160x1792_1_0_0_1_n_n none L R (constant S160x1792 .f32 0x00000000#32) (ix2 r f)
      = ∑ k : Fin 1792, L (ix2 r k) * R (ix2 k f) := by
  refine (Ideal.matmul_constant_zero_apply _ none _ _ _).trans ?_
  rw [← Equiv.sum_comp (contrEquiv1 dot_S160x1792_S1792x1792_S160x1792_1_0_0_1_n_n 1792 rfl rfl).symm]
  refine Finset.sum_congr rfl fun k _ => ?_
  have hk := contrEquiv1_symm_val dot_S160x1792_S1792x1792_S160x1792_1_0_0_1_n_n 1792 rfl rfl k
  have l0 : ∀ q, (dot_S160x1792_S1792x1792_S160x1792_1_0_0_1_n_n.lhsIdx (ix2 r f) q 0).val = r.val := fun q => by
    unfold DotDims.lhsIdx
    rw [dif_neg (show ¬(0 : Fin S160x1792.rank) ∈ dot_S160x1792_S1792x1792_S160x1792_1_0_0_1_n_n.lhsBatch by decide), dif_pos (show (0 : Fin S160x1792.rank) ∈ dot_S160x1792_S1792x1792_S160x1792_1_0_0_1_n_n.lhsNonContracting by decide)]
    rfl
  have l1 : ∀ q, (dot_S160x1792_S1792x1792_S160x1792_1_0_0_1_n_n.lhsIdx (ix2 r f) q 1).val = (q ⟨0, by decide⟩).val := fun q =>
    dot_S160x1792_S1792x1792_S160x1792_1_0_0_1_n_n.lhsIdx_val_of_single rfl _ q
  have r0 : ∀ q, (dot_S160x1792_S1792x1792_S160x1792_1_0_0_1_n_n.rhsIdx (ix2 r f) q 0).val = (q ⟨0, by decide⟩).val := fun q =>
    dot_S160x1792_S1792x1792_S160x1792_1_0_0_1_n_n.rhsIdx_val_of_single rfl _ q
  have r1 : ∀ q, (dot_S160x1792_S1792x1792_S160x1792_1_0_0_1_n_n.rhsIdx (ix2 r f) q 1).val = f.val := fun q => by
    unfold DotDims.rhsIdx
    rw [dif_neg (show ¬(1 : Fin S1792x1792.rank) ∈ dot_S160x1792_S1792x1792_S160x1792_1_0_0_1_n_n.rhsBatch by decide), dif_pos (show (1 : Fin S1792x1792.rank) ∈ dot_S160x1792_S1792x1792_S160x1792_1_0_0_1_n_n.rhsNonContracting by decide)]
    rfl
  have el : dot_S160x1792_S1792x1792_S160x1792_1_0_0_1_n_n.lhsIdx (ix2 r f) ((contrEquiv1 dot_S160x1792_S1792x1792_S160x1792_1_0_0_1_n_n 1792 rfl rfl).symm k) = ix2 r k :=
    funext fun a => Fin.ext (by
      match a with
      | ⟨0, _⟩ => exact l0 _
      | ⟨1, _⟩ => exact (l1 _).trans hk)
  have er : dot_S160x1792_S1792x1792_S160x1792_1_0_0_1_n_n.rhsIdx (ix2 r f) ((contrEquiv1 dot_S160x1792_S1792x1792_S160x1792_1_0_0_1_n_n 1792 rfl rfl).symm k) = ix2 k f :=
    funext fun a => Fin.ext (by
      match a with
      | ⟨0, _⟩ => exact (r0 _).trans hk
      | ⟨1, _⟩ => exact r1 _)
  rw [el, er]

/-- Query times key for one head: batched over the 32 batch rows, contracted over the 128 head
    features: entry (b, i, j) is the sum over d of Q (b, i, d) · K (b, j, d). -/
theorem qk_apply (L R : FVec Ideal S32x5x128 .bf16) (b : Fin 32) (i j : Fin 5) :
    matmul dot_S32x5x128_S32x5x128_S32x5x5_2_2_1_1_0_0 none L R (constant S32x5x5 .f32 0x00000000#32) (ix3 b i j)
      = ∑ k : Fin 128, L (ix3 b i k) * R (ix3 b j k) := by
  refine (Ideal.matmul_constant_zero_apply _ none _ _ _).trans ?_
  rw [← Equiv.sum_comp (contrEquiv1 dot_S32x5x128_S32x5x128_S32x5x5_2_2_1_1_0_0 128 rfl rfl).symm]
  refine Finset.sum_congr rfl fun k _ => ?_
  have hk := contrEquiv1_symm_val dot_S32x5x128_S32x5x128_S32x5x5_2_2_1_1_0_0 128 rfl rfl k
  have l0 : ∀ q, (dot_S32x5x128_S32x5x128_S32x5x5_2_2_1_1_0_0.lhsIdx (ix3 b i j) q 0).val = b.val := fun q => by
    unfold DotDims.lhsIdx
    rw [dif_pos (show (0 : Fin S32x5x128.rank) ∈ dot_S32x5x128_S32x5x128_S32x5x5_2_2_1_1_0_0.lhsBatch by decide)]
    rfl
  have l1 : ∀ q, (dot_S32x5x128_S32x5x128_S32x5x5_2_2_1_1_0_0.lhsIdx (ix3 b i j) q 1).val = i.val := fun q => by
    unfold DotDims.lhsIdx
    rw [dif_neg (show ¬(1 : Fin S32x5x128.rank) ∈ dot_S32x5x128_S32x5x128_S32x5x5_2_2_1_1_0_0.lhsBatch by decide), dif_pos (show (1 : Fin S32x5x128.rank) ∈ dot_S32x5x128_S32x5x128_S32x5x5_2_2_1_1_0_0.lhsNonContracting by decide)]
    rfl
  have l2 : ∀ q, (dot_S32x5x128_S32x5x128_S32x5x5_2_2_1_1_0_0.lhsIdx (ix3 b i j) q 2).val = (q ⟨0, by decide⟩).val := fun q =>
    dot_S32x5x128_S32x5x128_S32x5x5_2_2_1_1_0_0.lhsIdx_val_of_single rfl _ q
  have r0 : ∀ q, (dot_S32x5x128_S32x5x128_S32x5x5_2_2_1_1_0_0.rhsIdx (ix3 b i j) q 0).val = b.val := fun q => by
    unfold DotDims.rhsIdx
    rw [dif_pos (show (0 : Fin S32x5x128.rank) ∈ dot_S32x5x128_S32x5x128_S32x5x5_2_2_1_1_0_0.rhsBatch by decide)]
    rfl
  have r1 : ∀ q, (dot_S32x5x128_S32x5x128_S32x5x5_2_2_1_1_0_0.rhsIdx (ix3 b i j) q 1).val = j.val := fun q => by
    unfold DotDims.rhsIdx
    rw [dif_neg (show ¬(1 : Fin S32x5x128.rank) ∈ dot_S32x5x128_S32x5x128_S32x5x5_2_2_1_1_0_0.rhsBatch by decide), dif_pos (show (1 : Fin S32x5x128.rank) ∈ dot_S32x5x128_S32x5x128_S32x5x5_2_2_1_1_0_0.rhsNonContracting by decide)]
    rfl
  have r2 : ∀ q, (dot_S32x5x128_S32x5x128_S32x5x5_2_2_1_1_0_0.rhsIdx (ix3 b i j) q 2).val = (q ⟨0, by decide⟩).val := fun q =>
    dot_S32x5x128_S32x5x128_S32x5x5_2_2_1_1_0_0.rhsIdx_val_of_single rfl _ q
  have el : dot_S32x5x128_S32x5x128_S32x5x5_2_2_1_1_0_0.lhsIdx (ix3 b i j) ((contrEquiv1 dot_S32x5x128_S32x5x128_S32x5x5_2_2_1_1_0_0 128 rfl rfl).symm k) = ix3 b i k :=
    funext fun a => Fin.ext (by
      match a with
      | ⟨0, _⟩ => exact l0 _
      | ⟨1, _⟩ => exact l1 _
      | ⟨2, _⟩ => exact (l2 _).trans hk)
  have er : dot_S32x5x128_S32x5x128_S32x5x5_2_2_1_1_0_0.rhsIdx (ix3 b i j) ((contrEquiv1 dot_S32x5x128_S32x5x128_S32x5x5_2_2_1_1_0_0 128 rfl rfl).symm k) = ix3 b j k :=
    funext fun a => Fin.ext (by
      match a with
      | ⟨0, _⟩ => exact r0 _
      | ⟨1, _⟩ => exact r1 _
      | ⟨2, _⟩ => exact (r2 _).trans hk)
  rw [el, er]

/-- Attention weights times values for one head: batched over the 32 batch rows, contracted over
    the 5 attended vertices: entry (b, i, d) is the sum over j of L (b, i, j) · R (b, j, d). -/
theorem pv_apply (L : FVec Ideal S32x5x5 .bf16) (R : FVec Ideal S32x5x128 .bf16) (b : Fin 32) (i : Fin 5) (d : Fin 128) :
    matmul dot_S32x5x5_S32x5x128_S32x5x128_2_1_1_2_0_0 none L R (constant S32x5x128 .f32 0x00000000#32) (ix3 b i d)
      = ∑ k : Fin 5, L (ix3 b i k) * R (ix3 b k d) := by
  refine (Ideal.matmul_constant_zero_apply _ none _ _ _).trans ?_
  rw [← Equiv.sum_comp (contrEquiv1 dot_S32x5x5_S32x5x128_S32x5x128_2_1_1_2_0_0 5 rfl rfl).symm]
  refine Finset.sum_congr rfl fun k _ => ?_
  have hk := contrEquiv1_symm_val dot_S32x5x5_S32x5x128_S32x5x128_2_1_1_2_0_0 5 rfl rfl k
  have l0 : ∀ q, (dot_S32x5x5_S32x5x128_S32x5x128_2_1_1_2_0_0.lhsIdx (ix3 b i d) q 0).val = b.val := fun q => by
    unfold DotDims.lhsIdx
    rw [dif_pos (show (0 : Fin S32x5x5.rank) ∈ dot_S32x5x5_S32x5x128_S32x5x128_2_1_1_2_0_0.lhsBatch by decide)]
    rfl
  have l1 : ∀ q, (dot_S32x5x5_S32x5x128_S32x5x128_2_1_1_2_0_0.lhsIdx (ix3 b i d) q 1).val = i.val := fun q => by
    unfold DotDims.lhsIdx
    rw [dif_neg (show ¬(1 : Fin S32x5x5.rank) ∈ dot_S32x5x5_S32x5x128_S32x5x128_2_1_1_2_0_0.lhsBatch by decide), dif_pos (show (1 : Fin S32x5x5.rank) ∈ dot_S32x5x5_S32x5x128_S32x5x128_2_1_1_2_0_0.lhsNonContracting by decide)]
    rfl
  have l2 : ∀ q, (dot_S32x5x5_S32x5x128_S32x5x128_2_1_1_2_0_0.lhsIdx (ix3 b i d) q 2).val = (q ⟨0, by decide⟩).val := fun q =>
    dot_S32x5x5_S32x5x128_S32x5x128_2_1_1_2_0_0.lhsIdx_val_of_single rfl _ q
  have r0 : ∀ q, (dot_S32x5x5_S32x5x128_S32x5x128_2_1_1_2_0_0.rhsIdx (ix3 b i d) q 0).val = b.val := fun q => by
    unfold DotDims.rhsIdx
    rw [dif_pos (show (0 : Fin S32x5x128.rank) ∈ dot_S32x5x5_S32x5x128_S32x5x128_2_1_1_2_0_0.rhsBatch by decide)]
    rfl
  have r1 : ∀ q, (dot_S32x5x5_S32x5x128_S32x5x128_2_1_1_2_0_0.rhsIdx (ix3 b i d) q 1).val = (q ⟨0, by decide⟩).val := fun q =>
    dot_S32x5x5_S32x5x128_S32x5x128_2_1_1_2_0_0.rhsIdx_val_of_single rfl _ q
  have r2 : ∀ q, (dot_S32x5x5_S32x5x128_S32x5x128_2_1_1_2_0_0.rhsIdx (ix3 b i d) q 2).val = d.val := fun q => by
    unfold DotDims.rhsIdx
    rw [dif_neg (show ¬(2 : Fin S32x5x128.rank) ∈ dot_S32x5x5_S32x5x128_S32x5x128_2_1_1_2_0_0.rhsBatch by decide), dif_pos (show (2 : Fin S32x5x128.rank) ∈ dot_S32x5x5_S32x5x128_S32x5x128_2_1_1_2_0_0.rhsNonContracting by decide)]
    rfl
  have el : dot_S32x5x5_S32x5x128_S32x5x128_2_1_1_2_0_0.lhsIdx (ix3 b i d) ((contrEquiv1 dot_S32x5x5_S32x5x128_S32x5x128_2_1_1_2_0_0 5 rfl rfl).symm k) = ix3 b i k :=
    funext fun a => Fin.ext (by
      match a with
      | ⟨0, _⟩ => exact l0 _
      | ⟨1, _⟩ => exact l1 _
      | ⟨2, _⟩ => exact (l2 _).trans hk)
  have er : dot_S32x5x5_S32x5x128_S32x5x128_2_1_1_2_0_0.rhsIdx (ix3 b i d) ((contrEquiv1 dot_S32x5x5_S32x5x128_S32x5x128_2_1_1_2_0_0 5 rfl rfl).symm k) = ix3 b k d :=
    funext fun a => Fin.ext (by
      match a with
      | ⟨0, _⟩ => exact r0 _
      | ⟨1, _⟩ => exact (r1 _).trans hk
      | ⟨2, _⟩ => exact r2 _)
  rw [el, er]

end Cert.KernelIdeal.Dots

end
-- ==== Proof.Spec.lean ====
/-
  The function both programs compute, for ONE batch row, on the extended reals.

  A batch row is five vertices with 1792 features each. The row is projected to 5376 columns
  (queries, keys, values: 1792 each, every 1792 split into 14 heads of 128), every head takes,
  for each vertex i, the softmax over the five vertices j of the scaled query–key products plus
  an additive mask, and averages the values with those weights; the 14 heads' results are laid
  side by side again and projected back to 1792 columns. Sums are finite sums, the softmax is
  spelt exactly as both programs spell it (a running maximum from −∞, exponentials of the
  differences, their sum, the quotient), and the scale is the reciprocal of the reference's
  divisor 11863283 / 1048576 (the single-precision word nearest the square root of 128).
-/
import Idealize.ShloMosaic.PureOps.Ideal

noncomputable section

open scoped BigOperators

namespace Cert.Attn

open Idealize.ShloMosaic

/-- The scale: the reciprocal of the reference's divisor. -/
def invSqrt : EReal := ((1048576 / 11863283 : ℝ) : EReal)

/-- Column of head `h`, lane `d` among the 1792 columns of one of the three projections. -/
def hcol (h : Fin 14) (d : Fin 128) : Fin 1792 := ⟨128 * h.val + d.val, by have := h.isLt; have := d.isLt; omega⟩
/-- The query, key and value columns of head `h`, lane `d` among the 5376 projected columns. -/
def qcol (h : Fin 14) (d : Fin 128) : Fin 5376 := ⟨128 * h.val + d.val, by have := h.isLt; have := d.isLt; omega⟩
def kcol (h : Fin 14) (d : Fin 128) : Fin 5376 := ⟨1792 + (128 * h.val + d.val), by have := h.isLt; have := d.isLt; omega⟩
def vcol (h : Fin 14) (d : Fin 128) : Fin 5376 := ⟨3584 + (128 * h.val + d.val), by have := h.isLt; have := d.isLt; omega⟩
/-- The head and the lane of one of 1792 columns. -/
def headOf (e : Fin 1792) : Fin 14 := ⟨e.val / 128, by have := e.isLt; omega⟩
def laneOf (e : Fin 1792) : Fin 128 := ⟨e.val % 128, by omega⟩

/-- The largest of five scores, folded from −∞ (the single-precision word of −∞). -/
def rowMax (s : Fin 5 → EReal) : EReal := (Finset.univ : Finset (Fin 5)).fold max (Ideal.ofBits .f32 0xFF800000#32) s

/-- The unnormalised softmax weight of entry `j`. -/
def expShift (s : Fin 5 → EReal) (j : Fin 5) : EReal := Ideal.exp (s j - rowMax s)

/-- The softmax weight of entry `j`. -/
def softmax (s : Fin 5 → EReal) (j : Fin 5) : EReal := Ideal.div (expShift s j) (∑ j' : Fin 5, expShift s j')

/-- The scaled, masked score of query vertex `i` against key vertex `j` in one head. -/
def score (q k : Fin 5 → Fin 128 → EReal) (M : Fin 5 → Fin 5 → EReal) (i j : Fin 5) : EReal :=
  (∑ d : Fin 128, q i d * k j d) * invSqrt + M i j

/-- One head: the softmax-weighted average of the value rows. -/
def headOut (q k v : Fin 5 → Fin 128 → EReal) (M : Fin 5 → Fin 5 → EReal) (i : Fin 5) (d : Fin 128) : EReal :=
  ∑ j : Fin 5, softmax (score q k M i) j * v j d

/-- The input projection of a row: 5376 columns per vertex. -/
def qkvRow (x : Fin 5 → Fin 1792 → EReal) (W : Fin 5376 → Fin 1792 → EReal) (bq : Fin 5376 → EReal) (v : Fin 5) (e : Fin 5376) : EReal :=
  (∑ k : Fin 1792, x v k * W e k) + bq e

/-- The heads' results side by side: column `e` belongs to head `e / 128`, lane `e % 128`. -/
def attnRow (p : Fin 5 → Fin 5376 → EReal) (M : Fin 5 → Fin 5 → EReal) (i : Fin 5) (e : Fin 1792) : EReal :=
  headOut (fun i' d => p i' (qcol (headOf e) d)) (fun j d => p j (kcol (headOf e) d)) (fun j d => p j (vcol (headOf e) d)) M i (laneOf e)

/-- The output projection of a row. -/
def outRow (o : Fin 5 → Fin 1792 → EReal) (Wo : Fin 1792 → Fin 1792 → EReal) (bo : Fin 1792 → EReal) (i : Fin 5) (f : Fin 1792) : EReal :=
  (∑ e : Fin 1792, o i e * Wo f e) + bo f

/-- The whole row: what both programs write at vertex `i`, column `f`. -/
def rowOut (x : Fin 5 → Fin 1792 → EReal) (M : Fin 5 → Fin 5 → EReal) (W : Fin 5376 → Fin 1792 → EReal) (bq : Fin 5376 → EReal)
    (Wo : Fin 1792 → Fin 1792 → EReal) (bo : Fin 1792 → EReal) (i : Fin 5) (f : Fin 1792) : EReal :=
  outRow (attnRow (qkvRow x W bq) M) Wo bo i f

end Cert.Attn

end
-- ==== Proof.KernelStages.lean ====
/-
  The kernel body's stages read at coordinates. For batch row b of the block, each stage is the
  specification's function of the entries of the loaded blocks: the projection is a sum over the
  1792 features plus the bias; a head cut at column offset o reads columns o + d of the queries,
  keys and values; the row maximum is the fold from −∞ over the five entries, the row sum the sum
  over them; the fourteen heads side by side put head e / 128, lane e % 128 at column e; and the
  output projection is again a sum plus a bias. A change of float format is the identity here, and
  the named scale is the value the certificate's table gives it.
-/
import proofs.«109473_j28509992910915_2_alg».proof.Proof.KernelBody
import proofs.«109473_j28509992910915_2_alg».proof.Proof.KernelDots
import proofs.«109473_j28509992910915_2_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.KernelIdeal.Stages

open Cert.KernelIdeal Cert.KernelIdeal.Gen Cert.KernelIdeal.Body Idealize.ShloMosaic Idealize.SL.Sem Idealize.ShloMosaic.ValueIdx

/-- The named scale is the reciprocal of the reference's divisor, by the certificate's table. -/
theorem scale_eq : Named.named (F := Ideal) κ "inv_sqrt_hd" (φ := .f32) 0x3DB504F3#32 = Attn.invSqrt :=
  IdealRules.named_const.ideal_named_scalar _ _ _ _ rfl

/-- A per-row value spread along the last axis reads the row's value. -/
theorem spreadK_apply (r : FVec Ideal S32x5 .f32) (b : Fin 32) (i j : Fin 5) : spreadK r (ix3 b i j) = r (ix2 b i) := by
  unfold spreadK
  refine (broadcastTo_apply _ broadcasts_S32x5x1_S32x5x5 (ix3 b i j) (ix3 b i (0 : Fin 1)) (fun a => ?_)).trans ?_
  · match a with
    | ⟨0, _⟩ => rfl
    | ⟨1, _⟩ => rfl
    | ⟨2, _⟩ => rfl
  · refine shapeCast_apply _ shapeCasts_S32x5_S32x5x1 (ix3 b i (0 : Fin 1)) (ix2 b i) ?_
    rw [Shape.rowMajor_val_two, Shape.rowMajor_val_three]
    show b.val * 5 + i.val = (b.val * 5 + i.val) * 1 + 0
    omega

/-- The reduced index (b, i) with lane k put back is (b, i, k). -/
theorem lift_row (b : Fin 32) (i : Fin 5) (k : Fin (S32x5x5.size 2)) :
    reduces_S32x5x5_S32x5.lift (ix2 b i) k = ix3 b i (⟨k.val, k.isLt⟩ : Fin 5) := by
  funext c; apply Fin.ext
  fin_cases c <;> rfl

/-- The row maximum of a [32, 5, 5] array at (b, i): the fold from −∞ over the five entries. -/
theorem rowMaxK_apply (s : FVec Ideal S32x5x5 .f32) (b : Fin 32) (i : Fin 5) :
    multiReduction .maximumf [2] S32x5 s 0xFF800000#32 reduces_S32x5x5_S32x5 (.inl rfl) rfl (ix2 b i)
      = Attn.rowMax (fun j => s (ix3 b i j)) := by
  refine (Ideal.multiReduction_maximumf_single s _ reduces_S32x5x5_S32x5 _ _ (ix2 b i)).trans ?_
  have hf : (s ∘ reduces_S32x5x5_S32x5.lift (ix2 b i)) = fun j : Fin 5 => s (ix3 b i j) :=
    funext fun k => congrArg s (lift_row b i k)
  rw [hf]
  rfl

/-- The row sum of a [32, 5, 5] array at (b, i). -/
theorem rowSumK_apply (p : FVec Ideal S32x5x5 .f32) (b : Fin 32) (i : Fin 5) :
    multiReduction .add [2] S32x5 p 0x00000000#32 reduces_S32x5x5_S32x5 (.inl rfl) rfl (ix2 b i)
      = ∑ j : Fin 5, p (ix3 b i j) := by
  refine (Ideal.multiReduction_add_single p _ reduces_S32x5x5_S32x5 _ _ (ix2 b i)).trans ?_
  exact Finset.sum_congr rfl fun k _ => congrArg p (lift_row b i k)

/-- The scores of the head cut at offset o. -/
theorem scoreK_apply (q k : FVec Ideal S32x5x1792 .f32) (mb : FVec Ideal S32x5x5 .f32) (o : Nat) (ho : o + 128 ≤ 1792)
    (hs : S32x5x1792.Slices ![0, 0, o] S32x5x128) (b : Fin 32) (i j : Fin 5) :
    scoreK q k mb o hs (ix3 b i j) = Attn.score (fun i' d' => q (ix3 b i' (⟨o + d'.val, by have := d'.isLt; omega⟩ : Fin 1792))) (fun j' d' => k (ix3 b j' (⟨o + d'.val, by have := d'.isLt; omega⟩ : Fin 1792))) (fun i' j' => mb (ix3 b i' j')) i j := by
  unfold scoreK
  rw [addf_apply, mulf_apply, broadcast_apply, Dots.qk_apply, scale_eq]
  unfold Attn.score
  refine congrArg (fun t => t * Attn.invSqrt + mb (ix3 b i j)) (Finset.sum_congr rfl fun d _ => ?_)
  rw [truncf_apply, truncf_apply,
    extractStridedSlice_apply ![0, 0, o] q hs (ix3 b i d) (ix3 b i (⟨o + d.val, by have := d.isLt; omega⟩ : Fin 1792))
      (fun a => by match a with | ⟨0, _⟩ => exact (Nat.zero_add _).symm | ⟨1, _⟩ => exact (Nat.zero_add _).symm | ⟨2, _⟩ => rfl),
    extractStridedSlice_apply ![0, 0, o] k hs (ix3 b j d) (ix3 b j (⟨o + d.val, by have := d.isLt; omega⟩ : Fin 1792))
      (fun a => by match a with | ⟨0, _⟩ => exact (Nat.zero_add _).symm | ⟨1, _⟩ => exact (Nat.zero_add _).symm | ⟨2, _⟩ => rfl)]

/-- The exponentials of the shifted scores. -/
theorem expK_apply (s : FVec Ideal S32x5x5 .f32) (b : Fin 32) (i j : Fin 5) :
    expK s (ix3 b i j) = Attn.expShift (fun j' => s (ix3 b i j')) j := by
  unfold expK
  show Ideal.exp (s (ix3 b i j) - spreadK (F := Ideal) _ (ix3 b i j)) = _
  rw [spreadK_apply, rowMaxK_apply]
  rfl

/-- The softmax weights. -/
theorem softK_apply (s : FVec Ideal S32x5x5 .f32) (b : Fin 32) (i j : Fin 5) :
    softK (expK s) (ix3 b i j) = Attn.softmax (fun j' => s (ix3 b i j')) j := by
  unfold softK
  show Ideal.div (expK s (ix3 b i j)) (spreadK (F := Ideal) _ (ix3 b i j)) = _
  rw [spreadK_apply, rowSumK_apply]
  simp only [expK_apply]
  rfl

/-- The head cut at offset o. -/
theorem headK_apply (q k v : FVec Ideal S32x5x1792 .f32) (mb : FVec Ideal S32x5x5 .f32) (o : Nat) (ho : o + 128 ≤ 1792)
    (hs : S32x5x1792.Slices ![0, 0, o] S32x5x128) (b : Fin 32) (i : Fin 5) (d : Fin 128) :
    headK q k v mb o hs (ix3 b i d) = Attn.headOut (fun i' d' => q (ix3 b i' (⟨o + d'.val, by have := d'.isLt; omega⟩ : Fin 1792))) (fun j' d' => k (ix3 b j' (⟨o + d'.val, by have := d'.isLt; omega⟩ : Fin 1792))) (fun j' d' => v (ix3 b j' (⟨o + d'.val, by have := d'.isLt; omega⟩ : Fin 1792))) (fun i' j' => mb (ix3 b i' j')) i d := by
  unfold headK
  rw [Dots.pv_apply]
  unfold Attn.headOut
  refine Finset.sum_congr rfl fun j _ => ?_
  rw [truncf_apply, truncf_apply, softK_apply,
    extractStridedSlice_apply ![0, 0, o] v hs (ix3 b j d) (ix3 b j (⟨o + d.val, by have := d.isLt; omega⟩ : Fin 1792))
      (fun a => by match a with | ⟨0, _⟩ => exact (Nat.zero_add _).symm | ⟨1, _⟩ => exact (Nat.zero_add _).symm | ⟨2, _⟩ => rfl)]
  have hsc : (fun j' => scoreK q k mb o hs (ix3 b i j')) = Attn.score (fun i' d' => q (ix3 b i' (⟨o + d'.val, by have := d'.isLt; omega⟩ : Fin 1792))) (fun j' d' => k (ix3 b j' (⟨o + d'.val, by have := d'.isLt; omega⟩ : Fin 1792))) (fun i' j' => mb (ix3 b i' j')) i :=
    funext fun j' => scoreK_apply q k mb o ho hs b i j'
  rw [hsc]

/-- The input projection at (b, v, e). -/
theorem projK_apply (x0 : Vec Ideal S32x5x1792 .f32) (x2 : Vec Ideal S1792x5376 .bf16) (x3 : Vec Ideal S1x5376 .f32)
    (b : Fin 32) (v : Fin 5) (e : Fin 5376) :
    projK x0 x2 x3 (ix3 b v e)
      = Attn.qkvRow (fun v' k => x0 (ix3 b v' k)) (fun e' k => x2 (ix2 k e')) (fun e' => x3 (ix2 (0 : Fin 1) e')) v e := by
  have hb := b.isLt; have hv := v.isLt
  unfold projK
  refine (shapeCast_apply _ shapeCasts_S160x5376_S32x5x5376 (ix3 b v e) (ix2 (⟨b.val * 5 + v.val, by omega⟩ : Fin 160) e) ?_).trans ?_
  · rw [Shape.rowMajor_val_two, Shape.rowMajor_val_three]
    rfl
  · rw [addf_apply, Dots.inProj_apply]
    unfold Attn.qkvRow
    congr 1
    · refine Finset.sum_congr rfl fun k _ => ?_
      refine congrArg₂ (· * ·) ?_ ?_
      · refine (shapeCast_apply _ shapeCasts_S32x5x1792_S160x1792 (ix2 (⟨b.val * 5 + v.val, by omega⟩ : Fin 160) k) (ix3 b v k) ?_).trans rfl
        rw [Shape.rowMajor_val_three, Shape.rowMajor_val_two]
        rfl
      · rw [shapeCast_self]
    · refine (broadcastTo_apply _ broadcasts_S1x5376_S160x5376 _ (ix2 (0 : Fin 1) e) (fun a => by
        match a with
        | ⟨0, _⟩ => rfl
        | ⟨1, _⟩ => rfl)).trans ?_
      rw [shapeCast_self]

/-- The three thirds of the projection. -/
theorem qK_apply (p : FVec Ideal S32x5x5376 .f32) (b : Fin 32) (i : Fin 5) (c : Fin 1792) :
    qK p (ix3 b i c) = p (ix3 b i (⟨c.val, by have := c.isLt; omega⟩ : Fin 5376)) := by
  unfold qK
  exact extractStridedSlice_apply _ p _ (ix3 b i c) _ (fun a => by
    match a with
    | ⟨0, _⟩ => exact (Nat.zero_add _).symm
    | ⟨1, _⟩ => exact (Nat.zero_add _).symm
    | ⟨2, _⟩ => exact (Nat.zero_add _).symm)
theorem kK_apply (p : FVec Ideal S32x5x5376 .f32) (b : Fin 32) (i : Fin 5) (c : Fin 1792) :
    kK p (ix3 b i c) = p (ix3 b i (⟨1792 + c.val, by have := c.isLt; omega⟩ : Fin 5376)) := by
  unfold kK
  exact extractStridedSlice_apply _ p _ (ix3 b i c) _ (fun a => by
    match a with
    | ⟨0, _⟩ => exact (Nat.zero_add _).symm
    | ⟨1, _⟩ => exact (Nat.zero_add _).symm
    | ⟨2, _⟩ => rfl)
theorem vK_apply (p : FVec Ideal S32x5x5376 .f32) (b : Fin 32) (i : Fin 5) (c : Fin 1792) :
    vK p (ix3 b i c) = p (ix3 b i (⟨3584 + c.val, by have := c.isLt; omega⟩ : Fin 5376)) := by
  unfold vK
  exact extractStridedSlice_apply _ p _ (ix3 b i c) _ (fun a => by
    match a with
    | ⟨0, _⟩ => exact (Nat.zero_add _).symm
    | ⟨1, _⟩ => exact (Nat.zero_add _).symm
    | ⟨2, _⟩ => rfl)

/-- The mask block spread over the batch rows reads the mask. -/
theorem maskK_apply (x1 : Vec Ideal S5x5 .f32) (b : Fin 32) (i j : Fin 5) : maskK x1 (ix3 b i j) = x1 (ix2 i j) := by
  unfold maskK
  refine (broadcastTo_apply _ broadcasts_S1x5x5_S32x5x5 (ix3 b i j) (ix3 (0 : Fin 1) i j) (fun a => by
    match a with
    | ⟨0, _⟩ => rfl
    | ⟨1, _⟩ => rfl
    | ⟨2, _⟩ => rfl)).trans ?_
  rw [shapeCast_self]
  refine (shapeCast_apply _ shapeCasts_S5x5_S1x5x5 (ix3 (0 : Fin 1) i j) (ix2 i j) ?_).trans ?_
  · rw [Shape.rowMajor_val_two, Shape.rowMajor_val_three]
    show i.val * 5 + j.val = (0 * 5 + i.val) * 5 + j.val
    omega
  · rw [shapeCast_self]

/-- Head h of the body at (b, i, d): the specification's head on columns 128·h + d of the projection. -/
theorem headsK_apply (L0 : Vec Ideal S32x5x1792 .f32) (L1 : Vec Ideal S5x5 .f32) (L2 : Vec Ideal S1792x5376 .bf16) (L3 : Vec Ideal S1x5376 .f32)
    (h : Fin 14) (b : Fin 32) (i : Fin 5) (d : Fin 128) :
    headsK L0 L1 L2 L3 h (ix3 b i d)
      = Attn.headOut (fun i' d' => projK L0 L2 L3 (ix3 b i' (Attn.qcol h d'))) (fun j' d' => projK L0 L2 L3 (ix3 b j' (Attn.kcol h d')))
          (fun j' d' => projK L0 L2 L3 (ix3 b j' (Attn.vcol h d'))) (fun i' j' => L1 (ix2 i' j')) i d := by
  have hh := h.isLt
  unfold headsK
  rw [headK_apply _ _ _ _ (128 * h.val) (by omega)]
  simp only [qK_apply, kK_apply, vK_apply, maskK_apply]
  rfl

/-- The fourteen heads side by side. -/
def catK {F : FTy → Type} [FloatOps F] [Named F] (f : Fin 14 → FVec F S32x5x128 .f32) : FVec F S32x5x1792 .f32 :=
  concatenate S32x5x1792 2 (List.ofFn fun n : Fin 14 => (⟨S32x5x128, f n⟩ : (s : Shape) × (s.Idx → F .f32))) concatenates_S32x5x128_S32x5x128_S32x5x128_S32x5x128_S32x5x128_S32x5x128_S32x5x128_S32x5x128_S32x5x128_S32x5x128_S32x5x128_S32x5x128_S32x5x128_S32x5x128_S32x5x1792_d2

/-- Column e of the side-by-side array is head e / 128 at lane e % 128. -/
theorem catK_apply (f : Fin 14 → FVec Ideal S32x5x128 .f32) (b : Fin 32) (i : Fin 5) (e : Fin 1792) :
    catK f (ix3 b i e) = f (Attn.headOf e) (ix3 b i (Attn.laneOf e)) := by
  unfold catK
  refine concatenate_ofFn_apply (2 : Fin S32x5x1792.rank) f _ rfl 128 rfl (ix3 b i e) (Attn.headOf e) rfl (ix3 b i (Attn.laneOf e)) rfl (fun a ha => ?_)
  match a with
  | ⟨0, _⟩ => rfl
  | ⟨1, _⟩ => rfl
  | ⟨2, _⟩ => exact absurd rfl ha

/-- The output projection with its bias, as the body computes it from the side-by-side array. -/
def tailK {F : FTy → Type} [FloatOps F] [Named F] (o : FVec F S32x5x1792 .f32) (x4 : Vec F S1792x1792 .bf16) (x5 : Vec F S1x1792 .f32) : FVec F S32x5x1792 .f32 :=
  shapeCast S32x5x1792
    (addf (matmul dot_S160x1792_S1792x1792_S160x1792_1_0_0_1_n_n none
        (shapeCast S160x1792 (truncf .bf16 o bitsLt_bf16_f32) shapeCasts_S32x5x1792_S160x1792)
        (shapeCast S1792x1792 x4 shapeCasts_S1792x1792_S1792x1792)
        (constant S160x1792 .f32 0x00000000#32))
      (broadcastTo S160x1792 (shapeCast S1x1792 x5 shapeCasts_S1x1792_S1x1792) broadcasts_S1x1792_S160x1792))
    shapeCasts_S160x1792_S32x5x1792

theorem pay33_eq {F : FTy → Type} [FloatOps F] [Named F] (f : Fin 14 → FVec F S32x5x128 .f32) (x4 : Vec F S1792x1792 .bf16) (x5 : Vec F S1x1792 .f32) :
    k0_pay33 (f 0) (f 1) (f 2) (f 3) (f 4) (f 5) (f 6) (f 7) (f 8) (f 9) (f 10) (f 11) (f 12) (f 13) x4 x5 = tailK (catK f) x4 x5 := rfl

/-- The output projection at (b, i, c). -/
theorem tailK_apply (o : FVec Ideal S32x5x1792 .f32) (x4 : Vec Ideal S1792x1792 .bf16) (x5 : Vec Ideal S1x1792 .f32)
    (b : Fin 32) (i : Fin 5) (c : Fin 1792) :
    tailK o x4 x5 (ix3 b i c)
      = Attn.outRow (fun i' e => o (ix3 b i' e)) (fun c' e => x4 (ix2 e c')) (fun c' => x5 (ix2 (0 : Fin 1) c')) i c := by
  have hb := b.isLt; have hi := i.isLt
  unfold tailK
  refine (shapeCast_apply _ shapeCasts_S160x1792_S32x5x1792 (ix3 b i c) (ix2 (⟨b.val * 5 + i.val, by omega⟩ : Fin 160) c) ?_).trans ?_
  · rw [Shape.rowMajor_val_two, Shape.rowMajor_val_three]
    rfl
  · rw [addf_apply, Dots.outProj_apply]
    unfold Attn.outRow
    congr 1
    · refine Finset.sum_congr rfl fun k _ => ?_
      refine congrArg₂ (· * ·) ?_ ?_
      · refine (shapeCast_apply _ shapeCasts_S32x5x1792_S160x1792 (ix2 (⟨b.val * 5 + i.val, by omega⟩ : Fin 160) k) (ix3 b i k) ?_).trans rfl
        rw [Shape.rowMajor_val_three, Shape.rowMajor_val_two]
        rfl
      · rw [shapeCast_self]
    · refine (broadcastTo_apply _ broadcasts_S1x1792_S160x1792 _ (ix2 (0 : Fin 1) c) (fun a => by
        match a with
        | ⟨0, _⟩ => rfl
        | ⟨1, _⟩ => rfl)).trans ?_
      rw [shapeCast_self]

theorem hz3 : (![0, 0, 0] : Fin 3 → Nat) = fun _ => 0 := funext fun a => by fin_cases a <;> rfl
theorem hz2 : (![0, 0] : Fin 2 → Nat) = fun _ => 0 := funext fun a => by fin_cases a <;> rfl

/-- What a grid point leaves in the output block, at (b, i, c): the specification's row function of
    row b of the vertex block, the mask block, and the weight and bias blocks (the weights arrive
    transposed: entry (k, e) of a weight block is the weight of input k into output e). -/
theorem out_apply (x0 : Vec Ideal S32x5x1792 .f32) (x1 : Vec Ideal S5x5 .f32) (x2 : Vec Ideal S1792x5376 .bf16) (x3 : Vec Ideal S1x5376 .f32)
    (x4 : Vec Ideal S1792x1792 .bf16) (x5 : Vec Ideal S1x1792 .f32) (b : Fin 32) (i : Fin 5) (c : Fin 1792) :
    out0_6 (F := Ideal) x0 x1 x2 x3 x4 x5 (ix3 b i c)
      = Attn.rowOut (fun v k => x0 (ix3 b v k)) (fun i' j => x1 (ix2 i' j)) (fun e k => x2 (ix2 k e)) (fun e => x3 (ix2 (0 : Fin 1) e))
          (fun c' e => x4 (ix2 e c')) (fun c' => x5 (ix2 (0 : Fin 1) c')) i c := by
  unfold out0_6
  rw [View.canon_unit_zero hz3]
  simp only [View.ld_unit_zero (S := S32x5x1792) hz3, View.ld_unit_zero (S := S1792x5376) hz2, View.ld_unit_zero (S := S1x5376) hz2,
    View.ld_unit_zero (S := S5x5) hz2, View.ld_unit_zero (S := S1792x1792) hz2, View.ld_unit_zero (S := S1x1792) hz2]
  rw [head0_eq x0 x1 x2 x3, head1_eq x0 x1 x2 x3, head2_eq x0 x1 x2 x3, head3_eq x0 x1 x2 x3, head4_eq x0 x1 x2 x3, head5_eq x0 x1 x2 x3, head6_eq x0 x1 x2 x3, head7_eq x0 x1 x2 x3, head8_eq x0 x1 x2 x3, head9_eq x0 x1 x2 x3, head10_eq x0 x1 x2 x3, head11_eq x0 x1 x2 x3, head12_eq x0 x1 x2 x3, head13_eq x0 x1 x2 x3]
  rw [pay33_eq (headsK x0 x1 x2 x3), tailK_apply]
  unfold Attn.rowOut Attn.attnRow
  simp only [catK_apply, headsK_apply, projK_apply]

end Cert.KernelIdeal.Stages

end
-- ==== Proof.SpecArray.lean ====
/-
  The specification as ONE function of the whole argument arrays: entry (B, i, f) of the result is
  the row function of row B of the vertices, the mask, and the weights and biases. A batch row's
  result depends on no other row of the vertices.
-/
import proofs.«109473_j28509992910915_2_alg».proof.Proof.Spec
import Idealize.ShloMosaic.Lib.ValueIdx

noncomputable section

namespace Cert.Attn

open Idealize.ShloMosaic Idealize.ShloMosaic.ValueIdx

/-- The result array, index by index. -/
def arrayOut (X : (⟨3, ![8192, 5, 1792]⟩ : Shape).Idx → EReal) (M : (⟨2, ![5, 5]⟩ : Shape).Idx → EReal)
    (W : (⟨2, ![5376, 1792]⟩ : Shape).Idx → EReal) (bq : (⟨1, ![5376]⟩ : Shape).Idx → EReal)
    (Wo : (⟨2, ![1792, 1792]⟩ : Shape).Idx → EReal) (bo : (⟨1, ![1792]⟩ : Shape).Idx → EReal) :
    (⟨3, ![8192, 5, 1792]⟩ : Shape).Idx → EReal :=
  fun z => rowOut (fun v k => X (ix3 (⟨(z 0).val, (z 0).isLt⟩ : Fin 8192) v k)) (fun i j => M (ix2 i j)) (fun e k => W (ix2 e k))
    (fun e => bq (ix1 e)) (fun c e => Wo (ix2 c e)) (fun c => bo (ix1 c)) (⟨(z 1).val, (z 1).isLt⟩ : Fin 5) (⟨(z 2).val, (z 2).isLt⟩ : Fin 1792)

end Cert.Attn

end
-- ==== Proof.Blocks.lean ====
/-
  From blocks to the array. Grid point t stages rows 32·t … 32·t + 31 of the vertices and the whole
  of the mask, the two weight arrays and the two bias arrays, and writes back rows 32·t … 32·t + 31 of
  the result; the 256 points' blocks tile the 8192 rows. Before the launch the program transposes
  the two weight arrays, turns the bias vectors into one-row arrays, and builds the additive mask
  from the adjacency matrix. So what point t writes back is block t of the specification's array
  function of the argument arrays, and the array after the run is that function.
-/
import proofs.«109473_j28509992910915_2_alg».proof.Proof.Gen.KernelIdeal.Value
import proofs.«109473_j28509992910915_2_alg».proof.Proof.KernelStages
import proofs.«109473_j28509992910915_2_alg».proof.Proof.SpecArray
import Idealize.ShloMosaic.Lib.StableHlo.Run
import Idealize.ShloMosaic.Lib.Pipeline.Value
import Idealize.ShloMosaic.Lib.ValueIdx

noncomputable section

namespace Cert.KernelIdeal.Blocks

open Cert.KernelIdeal Cert.KernelIdeal.Gen Cert.KernelIdeal.Value Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- The additive mask the program builds from an adjacency matrix: the stand-in for −∞ where the
    matrix is zero, zero elsewhere. -/
def maskOf (A : S5x5.Idx → BitVec 32) : S5x5.Idx → EReal :=
  select (cmpi .eq A (broadcastInDim S5x5 ![] bcast_S_S5x5 (constantI S_ 32 0#32)))
    (broadcastInDim S5x5 ![] bcast_S_S5x5 (constant (F := Ideal) S_ .f32 0xF149F2CA#32))
    (broadcastInDim S5x5 ![] bcast_S_S5x5 (constant (F := Ideal) S_ .f32 0x00000000#32))

/-! ## The arrays the region finds, as the host operations left them -/

theorem V_mask (c : Dev nD) : (V m c main_v8 : S5x5.Idx → EReal) = maskOf (m ((c : Thread nD τ).loc main_arg1)) := by
  dsimp only [Gen.V]
  simp only [Gen.hostOps0, Gen.hostOps0_1, List.flatten_cons, List.flatten_nil, List.append_nil, List.cons_append, List.nil_append]
  after_results
  rfl

theorem V_wqkv (c : Dev nD) : (V m c main_v1 : S1792x5376.Idx → EReal)
    = (truncf (F := Ideal) .bf16 (transpose S1792x5376 [1, 0] ((m ((c : Thread nD τ).loc main_arg2)) : S5376x1792.Idx → EReal) transposes_S5376x1792_S1792x5376_1_0) bitsLt_bf16_f32 : S1792x5376.Idx → EReal) := by
  dsimp only [Gen.V]
  simp only [Gen.hostOps0, Gen.hostOps0_1, List.flatten_cons, List.flatten_nil, List.append_nil, List.cons_append, List.nil_append]
  after_results

theorem V_bqkv (c : Dev nD) : (V m c main_v4 : S1x5376.Idx → EReal) = shapeCast S1x5376 ((m ((c : Thread nD τ).loc main_arg3)) : S5376.Idx → EReal) shapeCasts_S5376_S1x5376 := by
  dsimp only [Gen.V]
  simp only [Gen.hostOps0, Gen.hostOps0_1, List.flatten_cons, List.flatten_nil, List.append_nil, List.cons_append, List.nil_append]
  after_results
  rfl

theorem V_wo (c : Dev nD) : (V m c main_v3 : S1792x1792.Idx → EReal)
    = (truncf (F := Ideal) .bf16 (transpose S1792x1792 [1, 0] ((m ((c : Thread nD τ).loc main_arg4)) : S1792x1792.Idx → EReal) transposes_S1792x1792_S1792x1792_1_0) bitsLt_bf16_f32 : S1792x1792.Idx → EReal) := by
  dsimp only [Gen.V]
  simp only [Gen.hostOps0, Gen.hostOps0_1, List.flatten_cons, List.flatten_nil, List.append_nil, List.cons_append, List.nil_append]
  after_results

theorem V_bo (c : Dev nD) : (V m c main_v5 : S1x1792.Idx → EReal) = shapeCast S1x1792 ((m ((c : Thread nD τ).loc main_arg5)) : S1792.Idx → EReal) shapeCasts_S1792_S1x1792 := by
  dsimp only [Gen.V]
  simp only [Gen.hostOps0, Gen.hostOps0_1, List.flatten_cons, List.flatten_nil, List.append_nil, List.cons_append, List.nil_append]
  after_results
  rfl

/-- Entry (k, e) of the transposed input weights is entry (e, k) of the argument. -/
theorem wqkv_apply (c : Dev nD) (k : Fin 1792) (e : Fin 5376) :
    (V m c main_v1 : S1792x5376.Idx → EReal) (ix2 k e) = (m ((c : Thread nD τ).loc main_arg2)) (ix2 e k) := by
  rw [V_wqkv, truncf_apply]
  exact transpose_apply [1, 0] _ transposes_S5376x1792_S1792x5376_1_0 (ix2 k e) (ix2 e k) (fun b => by
    match b with
    | ⟨0, _⟩ => rfl
    | ⟨1, _⟩ => rfl)

theorem wo_apply (c : Dev nD) (e f : Fin 1792) :
    (V m c main_v3 : S1792x1792.Idx → EReal) (ix2 e f) = (m ((c : Thread nD τ).loc main_arg4)) (ix2 f e) := by
  rw [V_wo, truncf_apply]
  exact transpose_apply [1, 0] _ transposes_S1792x1792_S1792x1792_1_0 (ix2 e f) (ix2 f e) (fun b => by
    match b with
    | ⟨0, _⟩ => rfl
    | ⟨1, _⟩ => rfl)

/-- The one-row bias arrays read the bias vectors. -/
theorem bqkv_apply (c : Dev nD) (e : Fin 5376) :
    (V m c main_v4 : S1x5376.Idx → EReal) (ix2 (0 : Fin 1) e) = (m ((c : Thread nD τ).loc main_arg3)) (ix1 e) := by
  rw [V_bqkv]
  refine shapeCast_apply _ shapeCasts_S5376_S1x5376 (ix2 (0 : Fin 1) e) (ix1 e) ?_
  rw [Shape.rowMajor_val_one, Shape.rowMajor_val_two]
  show e.val = 0 * 5376 + e.val
  omega

theorem bo_apply (c : Dev nD) (f : Fin 1792) :
    (V m c main_v5 : S1x1792.Idx → EReal) (ix2 (0 : Fin 1) f) = (m ((c : Thread nD τ).loc main_arg5)) (ix1 f) := by
  rw [V_bo]
  refine shapeCast_apply _ shapeCasts_S1792_S1x1792 (ix2 (0 : Fin 1) f) (ix1 f) ?_
  rw [Shape.rowMajor_val_one, Shape.rowMajor_val_two]
  show f.val = 0 * 1792 + f.val
  omega

/-! ## The printed index maps over the grid -/

/-- Window 0 and the output window move one block of 32 rows per point; the other windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-! ## What a point writes back -/

/-- The per-point statement over plain blocks and arrays: if the vertex block is rows 32·T … of X and
    the other blocks are the (transposed) weights, biases and mask, the body's output block at y is
    the specification's array at row 32·T + y₀. -/
theorem block_eq (x0 : Vec Ideal S32x5x1792 .f32) (x1 : Vec Ideal S5x5 .f32) (x2 : Vec Ideal S1792x5376 .bf16) (x3 : Vec Ideal S1x5376 .f32)
    (x4 : Vec Ideal S1792x1792 .bf16) (x5 : Vec Ideal S1x1792 .f32)
    (X : S8192x5x1792.Idx → EReal) (M : S5x5.Idx → EReal) (W : S5376x1792.Idx → EReal) (bq : S5376.Idx → EReal)
    (Wo : S1792x1792.Idx → EReal) (bo : S1792.Idx → EReal) (T : Nat) (hT : T < 256)
    (h0 : ∀ (b : Fin 32) (v : Fin 5) (k : Fin 1792), x0 (ix3 b v k) = X (ix3 (⟨T * 32 + b.val, by have := b.isLt; omega⟩ : Fin 8192) v k))
    (h1 : ∀ i j : Fin 5, x1 (ix2 i j) = M (ix2 i j))
    (h2 : ∀ (k : Fin 1792) (e : Fin 5376), x2 (ix2 k e) = W (ix2 e k))
    (h3 : ∀ e : Fin 5376, x3 (ix2 (0 : Fin 1) e) = bq (ix1 e))
    (h4 : ∀ e f : Fin 1792, x4 (ix2 e f) = Wo (ix2 f e))
    (h5 : ∀ f : Fin 1792, x5 (ix2 (0 : Fin 1) f) = bo (ix1 f))
    (b : Fin 32) (i : Fin 5) (f : Fin 1792) :
    out0_6 (F := Ideal) x0 x1 x2 x3 x4 x5 (ix3 b i f)
      = Attn.arrayOut X M W bq Wo bo (ix3 (⟨T * 32 + b.val, by have := b.isLt; omega⟩ : Fin 8192) i f) := by
  rw [Stages.out_apply]
  unfold Attn.arrayOut
  simp only [h0, h1, h2, h3, h4, h5]

/-- The same with the block index and the array index as plain indices related by their coordinates. -/
theorem block_eq' (x0 : Vec Ideal S32x5x1792 .f32) (x1 : Vec Ideal S5x5 .f32) (x2 : Vec Ideal S1792x5376 .bf16) (x3 : Vec Ideal S1x5376 .f32)
    (x4 : Vec Ideal S1792x1792 .bf16) (x5 : Vec Ideal S1x1792 .f32)
    (X : S8192x5x1792.Idx → EReal) (M : S5x5.Idx → EReal) (W : S5376x1792.Idx → EReal) (bq : S5376.Idx → EReal)
    (Wo : S1792x1792.Idx → EReal) (bo : S1792.Idx → EReal) (T : Nat) (hT : T < 256)
    (h0 : ∀ (b : Fin 32) (v : Fin 5) (k : Fin 1792), x0 (ix3 b v k) = X (ix3 (⟨T * 32 + b.val, by have := b.isLt; omega⟩ : Fin 8192) v k))
    (h1 : ∀ i j : Fin 5, x1 (ix2 i j) = M (ix2 i j))
    (h2 : ∀ (k : Fin 1792) (e : Fin 5376), x2 (ix2 k e) = W (ix2 e k))
    (h3 : ∀ e : Fin 5376, x3 (ix2 (0 : Fin 1) e) = bq (ix1 e))
    (h4 : ∀ e f : Fin 1792, x4 (ix2 e f) = Wo (ix2 f e))
    (h5 : ∀ f : Fin 1792, x5 (ix2 (0 : Fin 1) f) = bo (ix1 f))
    (y : S32x5x1792.Idx) (z : S8192x5x1792.Idx)
    (hz0 : (z 0).val = T * 32 + (y 0).val) (hz1 : (z 1).val = (y 1).val) (hz2 : (z 2).val = (y 2).val) :
    out0_6 (F := Ideal) x0 x1 x2 x3 x4 x5 y = Attn.arrayOut X M W bq Wo bo z := by
  obtain ⟨b, i, f, rfl⟩ : ∃ (b : Fin 32) (i : Fin 5) (f : Fin 1792), y = ix3 b i f := ⟨y 0, y 1, y 2, eq_ix3 y⟩
  obtain ⟨B, i', f', rfl⟩ : ∃ (B : Fin 8192) (i' : Fin 5) (f' : Fin 1792), z = ix3 B i' f' := ⟨z 0, z 1, z 2, eq_ix3 z⟩
  have eB : B = (⟨T * 32 + b.val, by have := b.isLt; omega⟩ : Fin 8192) := Fin.ext hz0
  have ei : i' = i := Fin.ext hz1
  have ef : f' = f := Fin.ext hz2
  rw [eB, ei, ef]
  exact block_eq x0 x1 x2 x3 x4 x5 X M W bq Wo bo T hT h0 h1 h2 h3 h4 h5 b i f

/-! ## The windows' blocks at a point, read off the arrays -/

theorem blk0 (c : Dev nD) (t : Fin cfg0.N) (b : Fin 32) (v : Fin 5) (k : Fin 1792) :
    (iblk m c 0 t : Vec Ideal S32x5x1792 .f32) (ix3 b v k)
      = (m ((c : Thread nD τ).loc main_arg0)) (ix3 (⟨t.val * 32 + b.val, by have := t.isLt; have : t.val < 256 := t.isLt; have := b.isLt; omega⟩ : Fin 8192) v k) := by
  obtain ⟨e00, e01, e02, -⟩ := idx_facts t
  show V m c main_arg0 (((cfg0.win 0).blk t).view.emb (ix3 b v k)) = _
  rw [V_main_arg0]
  refine congrArg _ ?_
  funext a; apply Fin.ext
  match a with
  | ⟨0, _⟩ => show win0_0.index t (0 : Fin 3) * 32 + 1 * b.val = t.val * 32 + b.val; omega
  | ⟨1, _⟩ => show win0_0.index t (1 : Fin 3) * 5 + 1 * v.val = v.val; omega
  | ⟨2, _⟩ => show win0_0.index t (2 : Fin 3) * 1792 + 1 * k.val = k.val; omega

theorem blk1 (c : Dev nD) (t : Fin cfg0.N) (i j : Fin 5) :
    (iblk m c 1 t : Vec Ideal S5x5 .f32) (ix2 i j) = maskOf (m ((c : Thread nD τ).loc main_arg1)) (ix2 i j) := by
  obtain ⟨-, -, -, e10, e11, -⟩ := idx_facts t
  show V m c main_v8 (((cfg0.win 1).blk t).view.emb (ix2 i j)) = _
  rw [← V_mask]
  refine congrArg _ ?_
  funext a; apply Fin.ext
  match a with
  | ⟨0, _⟩ => show win0_1.index t (0 : Fin 2) * 5 + 1 * i.val = i.val; omega
  | ⟨1, _⟩ => show win0_1.index t (1 : Fin 2) * 5 + 1 * j.val = j.val; omega

theorem blk2 (c : Dev nD) (t : Fin cfg0.N) (k : Fin 1792) (e : Fin 5376) :
    (iblk m c 2 t : Vec Ideal S1792x5376 .bf16) (ix2 k e) = (m ((c : Thread nD τ).loc main_arg2)) (ix2 e k) := by
  obtain ⟨-, -, -, -, -, e20, e21, -⟩ := idx_facts t
  show V m c main_v1 (((cfg0.win 2).blk t).view.emb (ix2 k e)) = _
  refine (congrArg (V m c main_v1 : S1792x5376.Idx → EReal) ?_).trans (wqkv_apply m c k e)
  funext a; apply Fin.ext
  match a with
  | ⟨0, _⟩ => show win0_2.index t (0 : Fin 2) * 1792 + 1 * k.val = k.val; omega
  | ⟨1, _⟩ => show win0_2.index t (1 : Fin 2) * 5376 + 1 * e.val = e.val; omega

theorem blk3 (c : Dev nD) (t : Fin cfg0.N) (e : Fin 5376) :
    (iblk m c 3 t : Vec Ideal S1x5376 .f32) (ix2 (0 : Fin 1) e) = (m ((c : Thread nD τ).loc main_arg3)) (ix1 e) := by
  obtain ⟨-, -, -, -, -, -, -, e30, e31, -⟩ := idx_facts t
  show V m c main_v4 (((cfg0.win 3).blk t).view.emb (ix2 (0 : Fin 1) e)) = _
  refine (congrArg (V m c main_v4 : S1x5376.Idx → EReal) ?_).trans (bqkv_apply m c e)
  funext a; apply Fin.ext
  match a with
  | ⟨0, _⟩ => show win0_3.index t (0 : Fin 2) * 1 + 1 * 0 = 0; omega
  | ⟨1, _⟩ => show win0_3.index t (1 : Fin 2) * 5376 + 1 * e.val = e.val; omega

theorem blk4 (c : Dev nD) (t : Fin cfg0.N) (e f : Fin 1792) :
    (iblk m c 4 t : Vec Ideal S1792x1792 .bf16) (ix2 e f) = (m ((c : Thread nD τ).loc main_arg4)) (ix2 f e) := by
  obtain ⟨-, -, -, -, -, -, -, -, -, e40, e41, -⟩ := idx_facts t
  show V m c main_v3 (((cfg0.win 4).blk t).view.emb (ix2 e f)) = _
  refine (congrArg (V m c main_v3 : S1792x1792.Idx → EReal) ?_).trans (wo_apply m c e f)
  funext a; apply Fin.ext
  match a with
  | ⟨0, _⟩ => show win0_4.index t (0 : Fin 2) * 1792 + 1 * e.val = e.val; omega
  | ⟨1, _⟩ => show win0_4.index t (1 : Fin 2) * 1792 + 1 * f.val = f.val; omega

theorem blk5 (c : Dev nD) (t : Fin cfg0.N) (f : Fin 1792) :
    (iblk m c 5 t : Vec Ideal S1x1792 .f32) (ix2 (0 : Fin 1) f) = (m ((c : Thread nD τ).loc main_arg5)) (ix1 f) := by
  obtain ⟨-, -, -, -, -, -, -, -, -, -, -, e50, e51, -⟩ := idx_facts t
  show V m c main_v5 (((cfg0.win 5).blk t).view.emb (ix2 (0 : Fin 1) f)) = _
  refine (congrArg (V m c main_v5 : S1x1792.Idx → EReal) ?_).trans (bo_apply m c f)
  funext a; apply Fin.ext
  match a with
  | ⟨0, _⟩ => show win0_5.index t (0 : Fin 2) * 1 + 1 * 0 = 0; omega
  | ⟨1, _⟩ => show win0_5.index t (1 : Fin 2) * 1792 + 1 * f.val = f.val; omega

/-- WHAT POINT t WRITES BACK is block t of the specification's array of the argument arrays. -/
theorem flushed_eq (c : Dev nD) (t : Fin cfg0.N) :
    (dats m 0 c).flushed 6 t = ((cfg0.win 6).blk t).view.read (Elt Ideal)
      (Attn.arrayOut (m ((c : Thread nD τ).loc main_arg0)) (maskOf (m ((c : Thread nD τ).loc main_arg1))) (m ((c : Thread nD τ).loc main_arg2)) (m ((c : Thread nD τ).loc main_arg3)) (m ((c : Thread nD τ).loc main_arg4)) (m ((c : Thread nD τ).loc main_arg5))) := by
  rw [flushed6]
  obtain ⟨-, -, -, -, -, -, -, -, -, -, -, -, -, e60, e61, e62⟩ := idx_facts t
  funext y
  show out0_6 (F := Ideal) (iblk m c 0 t) (iblk m c 1 t) (iblk m c 2 t) (iblk m c 3 t) (iblk m c 4 t) (iblk m c 5 t) y
      = Attn.arrayOut (m ((c : Thread nD τ).loc main_arg0)) (maskOf (m ((c : Thread nD τ).loc main_arg1))) (m ((c : Thread nD τ).loc main_arg2)) (m ((c : Thread nD τ).loc main_arg3)) (m ((c : Thread nD τ).loc main_arg4)) (m ((c : Thread nD τ).loc main_arg5)) (((cfg0.win 6).blk t).view.emb y)
  refine block_eq' (iblk m c 0 t) (iblk m c 1 t) (iblk m c 2 t) (iblk m c 3 t) (iblk m c 4 t) (iblk m c 5 t)
    (m ((c : Thread nD τ).loc main_arg0)) (maskOf (m ((c : Thread nD τ).loc main_arg1))) (m ((c : Thread nD τ).loc main_arg2)) (m ((c : Thread nD τ).loc main_arg3)) (m ((c : Thread nD τ).loc main_arg4)) (m ((c : Thread nD τ).loc main_arg5)) t.val t.isLt
    (blk0 m c t) (blk1 m c t) (blk2 m c t) (blk3 m c t) (blk4 m c t) (blk5 m c t) y (((cfg0.win 6).blk t).view.emb y) ?_ ?_ ?_
  · show win0_6.index t (0 : Fin 3) * 32 + 1 * (y 0).val = t.val * 32 + (y 0).val; omega
  · show win0_6.index t (1 : Fin 3) * 5 + 1 * (y 1).val = (y 1).val; omega
  · show win0_6.index t (2 : Fin 3) * 1792 + 1 * (y 2).val = (y 2).val; omega

/-! ## The cover, and the array after the run -/

/-- An index of the result array is in point t's block iff each coordinate is in the block's range. -/
theorem mem_blk (t : Fin cfg0.N) (i : S8192x5x1792.Idx) :
    i ∈ ((cfg0.win 6).blk t).view.set ↔ ∀ a : Fin 3, win0_6.index t a * S32x5x1792.size a ≤ (i a).val ∧ (i a).val < win0_6.index t a * S32x5x1792.size a + S32x5x1792.size a := by
  show i ∈ ((View.whole main_v9).slice (win0_6.rect t)).set ↔ _
  rw [View.set_slice_whole, Rect.mem_set_unit]
  exact Iff.rfl

/-- Row r of the result is in the block of point r / 32. -/
theorem cover (i : S8192x5x1792.Idx) : ∃ t : Fin cfg0.N, (cfg0.win 6).flush t = true ∧ i ∈ ((cfg0.win 6).blk t).view.set := by
  have h0 : (i 0).val < 8192 := (i 0).isLt
  have h1 : (i 1).val < 5 := (i 1).isLt
  have h2 : (i 2).val < 1792 := (i 2).isLt
  refine ⟨(⟨(i 0).val / 32, by show (i 0).val / 32 < 256; omega⟩ : Fin cfg0.N), flush0_6 _, ?_⟩
  rw [mem_blk]
  obtain ⟨-, -, -, -, -, -, -, -, -, -, -, -, -, e60, e61, e62⟩ := idx_facts (⟨(i 0).val / 32, by show (i 0).val / 32 < 256; omega⟩ : Fin cfg0.N)
  intro a
  match a with
  | ⟨0, _⟩ =>
    show win0_6.index _ (0 : Fin 3) * 32 ≤ (i 0).val ∧ (i 0).val < win0_6.index _ (0 : Fin 3) * 32 + 32
    rw [e60]; show (i 0).val / 32 * 32 ≤ (i 0).val ∧ (i 0).val < (i 0).val / 32 * 32 + 32; omega
  | ⟨1, _⟩ =>
    show win0_6.index _ (1 : Fin 3) * 5 ≤ (i 1).val ∧ (i 1).val < win0_6.index _ (1 : Fin 3) * 5 + 5
    rw [e61]; omega
  | ⟨2, _⟩ =>
    show win0_6.index _ (2 : Fin 3) * 1792 ≤ (i 2).val ∧ (i 2).val < win0_6.index _ (2 : Fin 3) * 1792 + 1792
    rw [e62]; omega

/-- THE ARRAY after the run is the specification's array of the argument arrays. -/
theorem final (c : Dev nD) : (dats m 0 c).arrAt 6 cfg0.N
    = Attn.arrayOut (m ((c : Thread nD τ).loc main_arg0)) (maskOf (m ((c : Thread nD τ).loc main_arg1))) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) cover

/-- The kernel's run: the result array at the specification's function of the arguments, the arguments unchanged. -/
theorem run : θ_run defs (onTc (τ := τ) (main (F := Ideal))) ⟨m, fun _ => 0, ρ⟩ fun r => ∀ c : Dev nD,
      r.2.mem ((c : Thread nD τ).loc main_v9)
        = Attn.arrayOut (m ((c : Thread nD τ).loc main_arg0)) (maskOf (m ((c : Thread nD τ).loc main_arg1))) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Blocks

end
-- ==== Proof.RefStages.lean ====
/-
  The reference program, stage by stage, read at coordinates: its result at batch row B, vertex i,
  column f is the row function of the specification applied to row B of the vertices, the mask the
  program builds from the adjacency matrix, and the weights and biases as given.
  Each stage is read with the generated one-operation lemmas; what is added here is the
  identification of each composed index with coordinates (the reshapes split a column 128·h + d
  into head h and lane d), the maximum from −∞ as a fold over the five entries, and the division
  by the divisor 11863283 / 1048576 as the product with its reciprocal.
-/
import proofs.«109473_j28509992910915_2_alg».proof.Proof.Gen.ReferenceIdeal.Read
import proofs.«109473_j28509992910915_2_alg».proof.Proof.Spec
import Idealize.ShloMosaic.Lib.ValueIdx
import Idealize.ShloMosaic.PureOps.Ideal.Laws

noncomputable section

open scoped BigOperators

namespace Cert.ReferenceIdeal.Stages

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's divisor: the single-precision word 0x413504F3 is 11863283 / 2^20. -/
theorem ofBits_divisor : Ideal.ofBits .f32 0x413504F3#32 = ((11863283 / 1048576 : ℝ) : EReal) := by
  simp [Ideal.ofBits, Ideal.ieee, -EReal.coe_mul]; norm_num

/-- Dividing by the divisor is multiplying by the scale, on every extended real. -/
theorem div_divisor (x : EReal) : Ideal.div x (Ideal.ofBits .f32 0x413504F3#32) = x * Attn.invSqrt := by
  rw [ofBits_divisor, Ideal.div_coe (by norm_num : (11863283 / 1048576 : ℝ) ≠ 0)]
  unfold Attn.invSqrt
  congr 2
  norm_num

/-- The maximum with −∞ of a maximum folded from −∞ is that maximum. -/
theorem max_rowMax (s : Fin 5 → EReal) : max (Ideal.ofBits .f32 0xFF800000#32) (Attn.rowMax s) = Attn.rowMax s :=
  max_eq_right ((Finset.le_fold_max _).2 (Or.inl le_rfl))

variable (X : (⟨S8192x5x1792, .f32⟩ : BufTy).Contents (Elt Ideal)) (A : (⟨S5x5, .i32⟩ : BufTy).Contents (Elt Ideal)) (W : (⟨S5376x1792, .f32⟩ : BufTy).Contents (Elt Ideal)) (bq : (⟨S5376, .f32⟩ : BufTy).Contents (Elt Ideal)) (Wo : (⟨S1792x1792, .f32⟩ : BufTy).Contents (Elt Ideal)) (bo : (⟨S1792, .f32⟩ : BufTy).Contents (Elt Ideal))

/-- The input projection at (B, v, e). -/
theorem v3_eq (B : Fin 8192) (v : Fin 5) (e : Fin 5376) :
    val_main_v3 (F := Ideal) X W bq (ix3 B v e) = Attn.qkvRow (fun v k => X (ix3 B v k)) (fun e k => W (ix2 e k)) (fun e => bq (ix1 e)) v e := by
  rw [val_main_v3_apply, val_main_v0_apply, val_main_v2_apply, val_main_v1_apply]
  have e1 : ∀ k, lidx_main_v0 (ix3 B v e) k = ix3 B v k := fun k => by funext a; match a with | ⟨0, _⟩ => rfl | ⟨1, _⟩ => rfl | ⟨2, _⟩ => rfl
  have e2 : ∀ k, ridx_main_v0 (ix3 B v e) k = ix2 e k := fun k => by funext a; match a with | ⟨0, _⟩ => rfl | ⟨1, _⟩ => rfl
  have e3 : idx_main_v1 (idx_main_v2 (ix3 B v e)) = ix1 e := by funext a; match a with | ⟨0, _⟩ => rfl
  simp only [e1, e2, e3]
  rfl

/-- The queries of head h: column 128·h + d of the projection. -/
theorem v8_eq (B : Fin 8192) (h : Fin 14) (i : Fin 5) (d : Fin 128) :
    val_main_v8 (F := Ideal) X W bq (ix4 B h i d) = val_main_v3 (F := Ideal) X W bq (ix3 B i (Attn.qcol h d)) := by
  rw [val_main_v8_apply, val_main_v7_apply, val_main_v4_apply]
  refine congrArg _ ?_
  have hB := B.isLt; have hh := h.isLt; have hi := i.isLt; have hd := d.isLt
  funext a
  match a with
  | ⟨0, _⟩ => exact Fin.ext (by show (((B.val * 5 + i.val) * 14 + h.val) * 128 + d.val) / 8960 = B.val; omega)
  | ⟨1, _⟩ => exact Fin.ext (by show (((B.val * 5 + i.val) * 14 + h.val) * 128 + d.val) / 1792 % 5 = i.val; omega)
  | ⟨2, _⟩ => exact Fin.ext (by show (((B.val * 5 + i.val) * 14 + h.val) * 128 + d.val) % 1792 = (128 * h.val + d.val); omega)

/-- The keys of head h: column 1792 + 128·h + d. -/
theorem v10_eq (B : Fin 8192) (h : Fin 14) (i : Fin 5) (d : Fin 128) :
    val_main_v10 (F := Ideal) X W bq (ix4 B h i d) = val_main_v3 (F := Ideal) X W bq (ix3 B i (Attn.kcol h d)) := by
  rw [val_main_v10_apply, val_main_v9_apply, val_main_v5_apply]
  refine congrArg _ ?_
  have hB := B.isLt; have hh := h.isLt; have hi := i.isLt; have hd := d.isLt
  funext a
  match a with
  | ⟨0, _⟩ => exact Fin.ext (by show (((B.val * 5 + i.val) * 14 + h.val) * 128 + d.val) / 8960 = B.val; omega)
  | ⟨1, _⟩ => exact Fin.ext (by show (((B.val * 5 + i.val) * 14 + h.val) * 128 + d.val) / 1792 % 5 = i.val; omega)
  | ⟨2, _⟩ => exact Fin.ext (by show 1792 + (((B.val * 5 + i.val) * 14 + h.val) * 128 + d.val) % 1792 = 1792 + (128 * h.val + d.val); omega)

/-- The values of head h: column 3584 + 128·h + d. -/
theorem v12_eq (B : Fin 8192) (h : Fin 14) (i : Fin 5) (d : Fin 128) :
    val_main_v12 (F := Ideal) X W bq (ix4 B h i d) = val_main_v3 (F := Ideal) X W bq (ix3 B i (Attn.vcol h d)) := by
  rw [val_main_v12_apply, val_main_v11_apply, val_main_v6_apply]
  refine congrArg _ ?_
  have hB := B.isLt; have hh := h.isLt; have hi := i.isLt; have hd := d.isLt
  funext a
  match a with
  | ⟨0, _⟩ => exact Fin.ext (by show (((B.val * 5 + i.val) * 14 + h.val) * 128 + d.val) / 8960 = B.val; omega)
  | ⟨1, _⟩ => exact Fin.ext (by show (((B.val * 5 + i.val) * 14 + h.val) * 128 + d.val) / 1792 % 5 = i.val; omega)
  | ⟨2, _⟩ => exact Fin.ext (by show 3584 + (((B.val * 5 + i.val) * 14 + h.val) * 128 + d.val) % 1792 = 3584 + (128 * h.val + d.val); omega)

/-- The mask, broadcast over batch rows and heads. -/
theorem v20_eq (B : Fin 8192) (h : Fin 14) (i j : Fin 5) :
    val_main_v20 (F := Ideal) A (ix4 B h i j) = val_main_v18 (F := Ideal) A (ix2 i j) := by
  rw [val_main_v20_apply, val_main_v19_apply]
  refine congrArg _ ?_
  funext a; match a with | ⟨0, _⟩ => rfl | ⟨1, _⟩ => rfl

/-- The scaled, masked scores. -/
theorem v21_eq (B : Fin 8192) (h : Fin 14) (i j : Fin 5) :
    val_main_v21 (F := Ideal) X A W bq (ix4 B h i j) = Attn.score (fun i' d' => val_main_v8 (F := Ideal) X W bq (ix4 B h i' d')) (fun j' d' => val_main_v10 (F := Ideal) X W bq (ix4 B h j' d')) (fun i j => val_main_v18 (F := Ideal) A (ix2 i j)) i j := by
  rw [val_main_v21_apply, val_main_v15_apply, val_main_v13_apply, val_main_v14_apply, val_main_cst_0_apply, v20_eq]
  have e1 : ∀ k, lidx_main_v13 (ix4 B h i j) k = ix4 B h i k := fun k => by funext a; match a with | ⟨0, _⟩ => rfl | ⟨1, _⟩ => rfl | ⟨2, _⟩ => rfl | ⟨3, _⟩ => rfl
  have e2 : ∀ k, ridx_main_v13 (ix4 B h i j) k = ix4 B h j k := fun k => by funext a; match a with | ⟨0, _⟩ => rfl | ⟨1, _⟩ => rfl | ⟨2, _⟩ => rfl | ⟨3, _⟩ => rfl
  simp only [e1, e2]
  show Ideal.div _ (Ideal.ofBits .f32 0x413504F3#32) + _ = _
  rw [div_divisor]
  rfl

/-- The row maximum, with the reference's extra maximum against −∞. -/
theorem v24_eq (B : Fin 8192) (h : Fin 14) (i : Fin 5) :
    val_main_v24 (F := Ideal) X A W bq (ix3 B h i) = Attn.rowMax (Attn.score (fun i' d' => val_main_v8 (F := Ideal) X W bq (ix4 B h i' d')) (fun j' d' => val_main_v10 (F := Ideal) X W bq (ix4 B h j' d')) (fun i j => val_main_v18 (F := Ideal) A (ix2 i j)) i) := by
  rw [val_main_v24_apply, val_main_v23_apply, val_main_cst_3_apply]
  have hr : S8192x14x5x5.Reduces [3] S8192x14x5 := by decide
  have e22 : val_main_v22 (F := Ideal) X A W bq (ix3 B h i) = Attn.rowMax (Attn.score (fun i' d' => val_main_v8 (F := Ideal) X W bq (ix4 B h i' d')) (fun j' d' => val_main_v10 (F := Ideal) X W bq (ix4 B h j' d')) (fun i j => val_main_v18 (F := Ideal) A (ix2 i j)) i) := by
    unfold val_main_v22
    rw [Host.reduce_eq_fold_single FloatOps.maximumf _ _ reducesTo_S8192x14x5x5_S8192x14x5_d3 hr h_S_]
    have hl : ∀ k : Fin (S8192x14x5x5.size 3), hr.lift (ix3 B h i) k = ix4 B h i (⟨k.val, k.isLt⟩ : Fin 5) := fun k => by
      funext c; apply Fin.ext
      fin_cases c <;> rfl
    have hf : (val_main_v21 (F := Ideal) X A W bq ∘ hr.lift (ix3 B h i)) = (Attn.score (fun i' d' => val_main_v8 (F := Ideal) X W bq (ix4 B h i' d')) (fun j' d' => val_main_v10 (F := Ideal) X W bq (ix4 B h j' d')) (fun i j => val_main_v18 (F := Ideal) A (ix2 i j)) i) := funext fun k => by
      show val_main_v21 (F := Ideal) X A W bq (hr.lift (ix3 B h i) k) = _
      rw [hl k, v21_eq]
      rfl
    rw [hf]
    rfl
  rw [e22]
  exact max_rowMax _

/-- The exponentials of the shifted scores. -/
theorem v28_eq (B : Fin 8192) (h : Fin 14) (i j : Fin 5) :
    val_main_v28 (F := Ideal) X A W bq (ix4 B h i j) = Attn.expShift (Attn.score (fun i' d' => val_main_v8 (F := Ideal) X W bq (ix4 B h i' d')) (fun j' d' => val_main_v10 (F := Ideal) X W bq (ix4 B h j' d')) (fun i j => val_main_v18 (F := Ideal) A (ix2 i j)) i) j := by
  rw [val_main_v28_apply, val_main_v27_apply, val_main_v26_apply, val_main_v25_apply, v21_eq]
  have e1 : idx_main_v25 (idx_main_v26 (ix4 B h i j)) = ix3 B h i := by funext a; match a with | ⟨0, _⟩ => rfl | ⟨1, _⟩ => rfl | ⟨2, _⟩ => rfl
  rw [e1, v24_eq]
  rfl

/-- The softmax weights. -/
theorem v32_eq (B : Fin 8192) (h : Fin 14) (i j : Fin 5) :
    val_main_v32 (F := Ideal) X A W bq (ix4 B h i j) = Attn.softmax (Attn.score (fun i' d' => val_main_v8 (F := Ideal) X W bq (ix4 B h i' d')) (fun j' d' => val_main_v10 (F := Ideal) X W bq (ix4 B h j' d')) (fun i j => val_main_v18 (F := Ideal) A (ix2 i j)) i) j := by
  rw [val_main_v32_apply, val_main_v31_apply, val_main_v30_apply, val_main_v29_apply, v28_eq]
  have e1 : idx_main_v30 (idx_main_v31 (ix4 B h i j)) = ix3 B h i := by funext a; match a with | ⟨0, _⟩ => rfl | ⟨1, _⟩ => rfl | ⟨2, _⟩ => rfl
  have e2 : ∀ k, idx_main_v29 (ix3 B h i) k = ix4 B h i k := fun k => by funext a; match a with | ⟨0, _⟩ => rfl | ⟨1, _⟩ => rfl | ⟨2, _⟩ => rfl | ⟨3, _⟩ => rfl
  rw [e1]
  simp only [e2, v28_eq]
  show Ideal.div _ (Ideal.ofBits .f32 0x00000000#32 + _) = _
  rw [Ideal.ofBits_zero_f32, zero_add]
  rfl

/-- One head's result. -/
theorem v33_eq (B : Fin 8192) (h : Fin 14) (i : Fin 5) (d : Fin 128) :
    val_main_v33 (F := Ideal) X A W bq (ix4 B h i d) = Attn.headOut (fun i' d' => val_main_v8 (F := Ideal) X W bq (ix4 B h i' d')) (fun j' d' => val_main_v10 (F := Ideal) X W bq (ix4 B h j' d')) (fun j' d' => val_main_v12 (F := Ideal) X W bq (ix4 B h j' d')) (fun i j => val_main_v18 (F := Ideal) A (ix2 i j)) i d := by
  rw [val_main_v33_apply]
  have e1 : ∀ k, lidx_main_v33 (ix4 B h i d) k = ix4 B h i k := fun k => by funext a; match a with | ⟨0, _⟩ => rfl | ⟨1, _⟩ => rfl | ⟨2, _⟩ => rfl | ⟨3, _⟩ => rfl
  have e2 : ∀ k, ridx_main_v33 (ix4 B h i d) k = ix4 B h k d := fun k => by funext a; match a with | ⟨0, _⟩ => rfl | ⟨1, _⟩ => rfl | ⟨2, _⟩ => rfl | ⟨3, _⟩ => rfl
  simp only [e1, e2, v32_eq]
  rfl

/-- The heads side by side: column e of vertex i is head e / 128, lane e % 128. -/
theorem v35_eq (B : Fin 8192) (i : Fin 5) (e : Fin 1792) :
    val_main_v35 (F := Ideal) X A W bq (ix3 B i e) = Attn.attnRow (Attn.qkvRow (fun v k => X (ix3 B v k)) (fun e k => W (ix2 e k)) (fun e => bq (ix1 e))) (fun i j => val_main_v18 (F := Ideal) A (ix2 i j)) i e := by
  rw [val_main_v35_apply, val_main_v34_apply]
  have hB := B.isLt; have hi := i.isLt; have he := e.isLt
  have e1 : idx_main_v34 (idx_main_v35 (ix3 B i e)) = ix4 B (Attn.headOf e) i (Attn.laneOf e) := by
    funext a
    match a with
    | ⟨0, _⟩ => exact Fin.ext (by show ((B.val * 5 + i.val) * 1792 + e.val) / 8960 = B.val; omega)
    | ⟨1, _⟩ => exact Fin.ext (by show ((B.val * 5 + i.val) * 1792 + e.val) / 128 % 14 = e.val / 128; omega)
    | ⟨2, _⟩ => exact Fin.ext (by show ((B.val * 5 + i.val) * 1792 + e.val) / 1792 % 5 = i.val; omega)
    | ⟨3, _⟩ => exact Fin.ext (by show ((B.val * 5 + i.val) * 1792 + e.val) % 128 = e.val % 128; omega)
  rw [e1, v33_eq]
  unfold Attn.attnRow
  simp only [v8_eq, v10_eq, v12_eq, v3_eq]

/-- The reference's result at (B, i, f) is the specification's row function. -/
theorem v39_eq (B : Fin 8192) (i : Fin 5) (f : Fin 1792) :
    val_main_v39 (F := Ideal) X A W bq Wo bo (ix3 B i f)
      = Attn.rowOut (fun v k => X (ix3 B v k)) (fun i j => val_main_v18 (F := Ideal) A (ix2 i j)) (fun e k => W (ix2 e k)) (fun e => bq (ix1 e)) (fun f e => Wo (ix2 f e)) (fun f => bo (ix1 f)) i f := by
  rw [val_main_v39_apply, val_main_v36_apply, val_main_v38_apply, val_main_v37_apply]
  have e1 : ∀ k, lidx_main_v36 (ix3 B i f) k = ix3 B i k := fun k => by funext a; match a with | ⟨0, _⟩ => rfl | ⟨1, _⟩ => rfl | ⟨2, _⟩ => rfl
  have e2 : ∀ k, ridx_main_v36 (ix3 B i f) k = ix2 f k := fun k => by funext a; match a with | ⟨0, _⟩ => rfl | ⟨1, _⟩ => rfl
  have e3 : idx_main_v37 (idx_main_v38 (ix3 B i f)) = ix1 f := by funext a; match a with | ⟨0, _⟩ => rfl
  simp only [e1, e2, e3, v35_eq]
  rfl

end Cert.ReferenceIdeal.Stages

end
-- ==== Proof.lean ====
/-
  The certificate: a kernel's multi-head attention over the five vertices of each batch row, against
  its reference program, on the extended reals.

  Both programs compute, for every batch row, the same function (Proof/Spec.lean): project the row's
  five vertices to queries, keys and values; in each of 14 heads of 128 lanes take the softmax, over
  the five vertices, of the scaled query–key products plus an additive adjacency mask, and average
  the values with those weights; project the heads, side by side, back to 1792 columns. The kernel
  does this for 32 batch rows per grid point, with the weights transposed beforehand and the 14 heads
  unrolled; the reference does it for all 8192 rows at once with the heads as an array axis. The two
  differ only in how they lay out and index the same finite sums, and in the scale: the reference
  divides the scores by its single-precision divisor 11863283 / 1048576, the kernel multiplies by a
  constant the certificate names as that divisor's reciprocal — one number on the extended reals.
  No law beyond reindexing is used, so the finiteness of the inputs is never opened.

  Proof/KernelDots.lean reads the kernel's four matrix products as finite sums; Proof/KernelBody.lean
  writes one head with its column offset as a parameter and identifies the body's fourteen heads
  with it; Proof/KernelStages.lean reads the body's stages at coordinates against the
  specification; Proof/Blocks.lean goes from the points' blocks to the whole result array;
  Proof/RefStages.lean reads the reference's stages at coordinates against the same specification.
-/
import proofs.«109473_j28509992910915_2_alg».proof.Defs
import proofs.«109473_j28509992910915_2_alg».proof.Proof.Gen.Kernel
import proofs.«109473_j28509992910915_2_alg».proof.Proof.Gen.Kernel.Skeleton
import proofs.«109473_j28509992910915_2_alg».proof.Proof.Gen.Kernel.Launch
import proofs.«109473_j28509992910915_2_alg».proof.Proof.Gen.Kernel.Points
import proofs.«109473_j28509992910915_2_alg».proof.Proof.Gen.Kernel.Frame
import proofs.«109473_j28509992910915_2_alg».proof.Proof.Gen.KernelIdeal
import proofs.«109473_j28509992910915_2_alg».proof.Proof.Gen.KernelIdeal.Skeleton
import proofs.«109473_j28509992910915_2_alg».proof.Proof.Gen.KernelIdeal.Launch
import proofs.«109473_j28509992910915_2_alg».proof.Proof.Gen.KernelIdeal.Points
import proofs.«109473_j28509992910915_2_alg».proof.Proof.Gen.KernelIdeal.Frame
import proofs.«109473_j28509992910915_2_alg».proof.Proof.Gen.ReferenceIdeal
import proofs.«109473_j28509992910915_2_alg».proof.Proof.Gen.KernelIdeal.Value
import proofs.«109473_j28509992910915_2_alg».proof.Proof.Gen.ReferenceIdeal.Run
import proofs.«109473_j28509992910915_2_alg».proof.Proof.Gen.ReferenceIdeal.Read
import proofs.«109473_j28509992910915_2_alg».proof.Proof.Gen.Pre_finite_inputs
import proofs.«109473_j28509992910915_2_alg».proof.Proof.Blocks
import proofs.«109473_j28509992910915_2_alg».proof.Proof.RefStages
import Idealize.ShloMosaic.Adequacy
import Idealize.ShloMosaic.Init

noncomputable section

namespace Cert.Proof

open Idealize.ShloMosaic Idealize.ShloMosaic.TcCoe Idealize.SL.Sem Idealize.ShloMosaic.ValueIdx

section ReferenceSide
open Cert.ReferenceIdeal

/-- The reference's result array is the specification's array of its arguments, the mask being the
    one the reference builds from the adjacency matrix. -/
theorem ref_array (X : (⟨S8192x5x1792, .f32⟩ : BufTy).Contents (Elt Ideal)) (A : (⟨S5x5, .i32⟩ : BufTy).Contents (Elt Ideal)) (W : (⟨S5376x1792, .f32⟩ : BufTy).Contents (Elt Ideal)) (bq : (⟨S5376, .f32⟩ : BufTy).Contents (Elt Ideal)) (Wo : (⟨S1792x1792, .f32⟩ : BufTy).Contents (Elt Ideal)) (bo : (⟨S1792, .f32⟩ : BufTy).Contents (Elt Ideal)) :
    Cert.ReferenceIdeal.Read.val_main_v39 (F := Ideal) X A W bq Wo bo
      = Attn.arrayOut X (Cert.ReferenceIdeal.Read.val_main_v18 (F := Ideal) A) W bq Wo bo := by
  funext z
  obtain ⟨B, i, f, rfl⟩ : ∃ (B : Fin 8192) (i : Fin 5) (f : Fin 1792), z = ix3 B i f := ⟨z 0, z 1, z 2, eq_ix3 z⟩
  rw [Cert.ReferenceIdeal.Stages.v39_eq]
  rfl

/-- Both programs build the mask from the adjacency matrix by the same operations. -/
theorem mask_eq (A : (⟨S5x5, .i32⟩ : BufTy).Contents (Elt Ideal)) :
    Cert.KernelIdeal.Blocks.maskOf A = Cert.ReferenceIdeal.Read.val_main_v18 (F := Ideal) A := rfl

end ReferenceSide

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one named constant, at each of the fourteen places the body spells it: the table gives the
    name the value 1048576 / 11863283, and the printed constant is that value on the extended reals. -/
theorem named_scale : IdealRules.named_const.Statement Cert.KernelIdeal.κ "inv_sqrt_hd" .f32 0x3DB504F3#32 ((1048576 / 11863283 : ℝ) : EReal) :=
  IdealRules.named_const.statement Cert.KernelIdeal.κ "inv_sqrt_hd" .f32 0x3DB504F3#32 ((1048576 / 11863283 : ℝ) : EReal) rfl

theorem preserves : Cert.preserves_Kernel_KernelIdeal :=
  ⟨named_scale, named_scale, named_scale, named_scale, named_scale, named_scale, named_scale, named_scale, named_scale, named_scale,
    named_scale, named_scale, named_scale, named_scale⟩

/-- From memories agreeing on the arguments both programs end with the specification's array of
    those arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2.1, (hagree c).2.2.2.1,
    (hagree c).2.2.2.2.1, (hagree c).2.2.2.2.2, ref_array, ← mask_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
